-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg10 : FVec F S128 .f32) (main_arg11 : FVec F S128x128 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x128 .f32) (main_arg1 : FVec F S50000x128 .f32) (main_arg2 : IVec S2x600000 32) (main_arg3 : IVec S2x600000 32) (main_arg4 : IVec S2x600000 32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S2000x128 : Shape := ⟨2, ![2000, 128]⟩
abbrev S2000x1 : Shape := ⟨2, ![2000, 1]⟩
abbrev S1x128 : Shape := ⟨2, ![1, 128]⟩
abbrev S2000 : Shape := ⟨1, ![2000]⟩
abbrev S5000x128 : Shape := ⟨2, ![5000, 128]⟩
abbrev S5000x1 : Shape := ⟨2, ![5000, 1]⟩
abbrev S5000 : Shape := ⟨1, ![5000]⟩

abbrev nBuf : Space → Nat
  | .hbm => 124
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x600000, .i32⟩
  | .hbm, ⟨3, _⟩ => ⟨S2x600000, .i32⟩
  | .hbm, ⟨4, _⟩ => ⟨S2x600000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S50000x128, .bf16⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .bf16⟩
  | .hbm, ⟨28, _⟩ => ⟨S600000x128, .f32⟩
  | .hbm, ⟨29, _⟩ => ⟨S1x600000, .i32⟩
  | .hbm, ⟨30, _⟩ => ⟨S600000, .i32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S_, .f32⟩
  | .hbm, ⟨36, _⟩ => ⟨S600000x1, .f32⟩
  | .hbm, ⟨37, _⟩ => ⟨S1x600000, .i32⟩
  | .hbm, ⟨38, _⟩ => ⟨S600000, .i32⟩
  | .hbm, ⟨39, _⟩ => ⟨S_, .f32⟩
  | .hbm, ⟨40, _⟩ => ⟨S50000x1, .f32⟩
  | .hbm, ⟨41, _⟩ => ⟨S600000x1, .i32⟩
  | .hbm, ⟨42, _⟩ => ⟨S50000x1, .f32⟩
  | .hbm, ⟨43, _⟩ => ⟨S_, .f32⟩
  | .hbm, ⟨44, _⟩ => ⟨S50000x1, .f32⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x128, .bf16⟩
  | .hbm, ⟨50, _⟩ => ⟨S1x600000, .i32⟩
  | .hbm, ⟨51, _⟩ => ⟨S600000, .i32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .bf16⟩
  | .hbm, ⟨61, _⟩ => ⟨S600000x128, .f32⟩
  | .hbm, ⟨62, _⟩ => ⟨S1x600000, .i32⟩
  | .hbm, ⟨63, _⟩ => ⟨S600000, .i32⟩
  | .hbm, ⟨64, _⟩ => ⟨S_, .f32⟩
  | .hbm, ⟨65, _⟩ => ⟨S50000x128, .f32⟩
  | .hbm, ⟨66, _⟩ => ⟨S600000x1, .i32⟩
  | .hbm, ⟨67, _⟩ => ⟨S50000x128, .f32⟩
  | .hbm, ⟨68, _⟩ => ⟨S_, .f32⟩
  | .hbm, ⟨69, _⟩ => ⟨S600000x1, .f32⟩
  | .hbm, ⟨70, _⟩ => ⟨S1x600000, .i32⟩
  | .hbm, ⟨71, _⟩ => ⟨S600000, .i32⟩
  | .hbm, ⟨72, _⟩ => ⟨S_, .f32⟩
  | .hbm, ⟨73, _⟩ => ⟨S50000x1, .f32⟩
  | .hbm, ⟨74, _⟩ => ⟨S600000x1, .i32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S_, .f32⟩
  | .hbm, ⟨80, _⟩ => ⟨S50000x1, .f32⟩
  | .hbm, ⟨81, _⟩ => ⟨S50000x1, .f32⟩
  | .hbm, ⟨82, _⟩ => ⟨S50000x128, .bf16⟩
  | .hbm, ⟨83, _⟩ => ⟨S1x600000, .i32⟩
  | .hbm, ⟨84, _⟩ => ⟨S600000, .i32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .bf16⟩
  | .hbm, ⟨94, _⟩ => ⟨S600000x128, .f32⟩
  | .hbm, ⟨95, _⟩ => ⟨S1x600000, .i32⟩
  | .hbm, ⟨96, _⟩ => ⟨S600000, .i32⟩
  | .hbm, ⟨97, _⟩ => ⟨S_, .f32⟩
  | .hbm, ⟨98, _⟩ => ⟨S50000x128, .f32⟩
  | .hbm, ⟨99, _⟩ => ⟨S600000x1, .i32⟩
  | .hbm, ⟨100, _⟩ => ⟨S50000x128, .f32⟩
  | .hbm, ⟨101, _⟩ => ⟨S_, .f32⟩
  | .hbm, ⟨102, _⟩ => ⟨S600000x1, .f32⟩
  | .hbm, ⟨103, _⟩ => ⟨S1x600000, .i32⟩
  | .hbm, ⟨104, _⟩ => ⟨S600000, .i32⟩
  | .hbm, ⟨105, _⟩ => ⟨S_, .f32⟩
  | .hbm, ⟨106, _⟩ => ⟨S50000x1, .f32⟩
  | .hbm, ⟨107, _⟩ => ⟨S600000x1, .i32⟩
  | .hbm, ⟨108, _⟩ => ⟨S50000x1, .f32⟩
  | .hbm, ⟨109, _⟩ => ⟨S_, .f32⟩
  | .hbm, ⟨110, _⟩ => ⟨S50000x1, .f32⟩
  | .hbm, ⟨111, _⟩ => ⟨S50000x1, .f32⟩
  | .hbm, ⟨112, _⟩ => ⟨S_, .f32⟩
  | .hbm, ⟨113, _⟩ => ⟨S50000x1, .f32⟩
  | .hbm, ⟨114, _⟩ => ⟨S50000x1, .f32⟩
  | .hbm, ⟨115, _⟩ => ⟨S128x128, .f32⟩
  | .hbm, ⟨116, _⟩ => ⟨S128x128, .f32⟩
  | .hbm, ⟨117, _⟩ => ⟨S128x128, .f32⟩
  | .hbm, ⟨118, _⟩ => ⟨S128x128, .f32⟩
  | .hbm, ⟨119, _⟩ => ⟨S128, .f32⟩
  | .hbm, ⟨120, _⟩ => ⟨S128x128, .f32⟩
  | .hbm, ⟨121, _⟩ => ⟨S128x128, .f32⟩
  | .hbm, ⟨122, _⟩ => ⟨S50000x128, .f32⟩
  | .hbm, ⟨123, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128x128, .f32⟩
  | .local _ .vmem, ⟨26, _⟩ => ⟨S128, .f32⟩
  | .local _ .vmem, ⟨27, _⟩ => ⟨S128, .f32⟩
  | .local _ .vmem, ⟨28, _⟩ => ⟨S128, .f32⟩
  | .local _ .vmem, ⟨29, _⟩ => ⟨S5000x128, .f32⟩
  | .local _ .vmem, ⟨30, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_12 : Ref sig .tc := ⟨.hbm, 85, rfl⟩
abbrev main_v55 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_17 : Ref sig .tc := ⟨.hbm, 109, rfl⟩
abbrev main_v74 : Ref sig .tc := ⟨.hbm, 110, rfl⟩
abbrev main_v75 : Ref sig .tc := ⟨.hbm, 111, rfl⟩
abbrev main_cst_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg8_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem8_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bitsLt_bf16_f32 : FTy.bits .bf16 < FTy.bits .f32
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  reduces_S5000x128_S5000 : S5000x128.Reduces [1] S5000
  shapeCasts_S5000_S5000x1 : S5000.ShapeCasts S5000x1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S2000x128_S128x128_S2000x128_1_0_0_1_n_n_wf : DotDims.WF S2000x128 S128x128 S2000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v78) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v79) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v81) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v82) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v85) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v67) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v83) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v84) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v86) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000 : Shape := ⟨1, ![50000]⟩

abbrev nBuf : Space → Nat
  | .hbm => 195
  | .vmem => 0
  | .smem => 0
  | _ => 0

abbrev hbmTy0_0 (i : Nat) : BufTy := match i % 128 with
  | 0 => ⟨S50000x128, .f32⟩
  | 1 => ⟨S50000x128, .f32⟩
  | 2 => ⟨S2x600000, .i32⟩
  | 3 => ⟨S2x600000, .i32⟩
  | 4 => ⟨S2x600000, .i32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128, .f32⟩
  | 15 => ⟨S128, .f32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S1x600000, .i32⟩
  | 28 => ⟨S600000, .i32⟩
  | 29 => ⟨S_, .f32⟩
  | 30 => ⟨S50000x128, .f32⟩
  | 31 => ⟨S600000x1, .i32⟩
  | 32 => ⟨S50000x128, .f32⟩
  | 33 => ⟨S_, .f32⟩
  | 34 => ⟨S600000x1, .f32⟩
  | 35 => ⟨S1x600000, .i32⟩
  | 36 => ⟨S600000, .i32⟩
  | 37 => ⟨S_, .f32⟩
  | 38 => ⟨S50000x1, .f32⟩
  | 39 => ⟨S600000x1, .i32⟩
  | 40 => ⟨S50000x1, .f32⟩
  | 41 => ⟨S_, .f32⟩
  | 42 => ⟨S50000x1, .f32⟩
  | 43 => ⟨S50000x1, .f32⟩
  | 44 => ⟨S50000x128, .f32⟩
  | 45 => ⟨S50000x128, .f32⟩
  | 46 => ⟨S128x128, .f32⟩
  | 47 => ⟨S50000x128, .f32⟩
  | 48 => ⟨S128x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S1x600000, .i32⟩
  | 55 => ⟨S600000, .i32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S1x600000, .i32⟩
  | 66 => ⟨S600000, .i32⟩
  | 67 => ⟨S_, .f32⟩
  | 68 => ⟨S50000x128, .f32⟩
  | 69 => ⟨S600000x1, .i32⟩
  | 70 => ⟨S50000x128, .f32⟩
  | 71 => ⟨S_, .f32⟩
  | 72 => ⟨S600000x1, .f32⟩
  | 73 => ⟨S1x600000, .i32⟩
  | 74 => ⟨S600000, .i32⟩
  | 75 => ⟨S_, .f32⟩
  | 76 => ⟨S50000x1, .f32⟩
  | 77 => ⟨S600000x1, .i32⟩
  | 78 => ⟨S50000x1, .f32⟩
  | 79 => ⟨S_, .f32⟩
  | 80 => ⟨S50000x1, .f32⟩
  | 81 => ⟨S50000x1, .f32⟩
  | 82 => ⟨S50000x128, .f32⟩
  | 83 => ⟨S50000x128, .f32⟩
  | 84 => ⟨S128x128, .f32⟩
  | 85 => ⟨S50000x128, .f32⟩
  | 86 => ⟨S128x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S50000x128, .f32⟩
  | 93 => ⟨S1x600000, .i32⟩
  | 94 => ⟨S600000, .i32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S1x600000, .i32⟩
  | 105 => ⟨S600000, .i32⟩
  | 106 => ⟨S_, .f32⟩
  | 107 => ⟨S50000x128, .f32⟩
  | 108 => ⟨S600000x1, .i32⟩
  | 109 => ⟨S50000x128, .f32⟩
  | 110 => ⟨S_, .f32⟩
  | 111 => ⟨S600000x1, .f32⟩
  | 112 => ⟨S1x600000, .i32⟩
  | 113 => ⟨S600000, .i32⟩
  | 114 => ⟨S_, .f32⟩
  | 115 => ⟨S50000x1, .f32⟩
  | 116 => ⟨S600000x1, .i32⟩
  | 117 => ⟨S50000x1, .f32⟩
  | 118 => ⟨S_, .f32⟩
  | 119 => ⟨S50000x1, .f32⟩
  | 120 => ⟨S50000x1, .f32⟩
  | 121 => ⟨S50000x128, .f32⟩
  | 122 => ⟨S50000x128, .f32⟩
  | 123 => ⟨S128x128, .f32⟩
  | 124 => ⟨S50000x128, .f32⟩
  | 125 => ⟨S128x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S50000x128, .f32⟩
  | 10 => ⟨S50000x128, .f32⟩
  | 11 => ⟨S50000x128, .f32⟩
  | 12 => ⟨S_, .f32⟩
  | 13 => ⟨S50000, .f32⟩
  | 14 => ⟨S50000x1, .f32⟩
  | 15 => ⟨S_, .f32⟩
  | 16 => ⟨S50000x1, .f32⟩
  | 17 => ⟨S50000x1, .f32⟩
  | 18 => ⟨S50000x128, .f32⟩
  | 19 => ⟨S50000x128, .f32⟩
  | 20 => ⟨S_, .f32⟩
  | 21 => ⟨S50000x1, .f32⟩
  | 22 => ⟨S50000x1, .f32⟩
  | 23 => ⟨S50000x1, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S50000x128, .f32⟩
  | 44 => ⟨S_, .f32⟩
  | 45 => ⟨S50000, .f32⟩
  | 46 => ⟨S50000x1, .f32⟩
  | 47 => ⟨S_, .f32⟩
  | 48 => ⟨S50000x1, .f32⟩
  | 49 => ⟨S50000x1, .f32⟩
  | 50 => ⟨S50000x128, .f32⟩
  | 51 => ⟨S50000x128, .f32⟩
  | 52 => ⟨S_, .f32⟩
  | 53 => ⟨S50000x1, .f32⟩
  | 54 => ⟨S50000x1, .f32⟩
  | 55 => ⟨S50000x1, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_10 : Ref sig .tc := ⟨.hbm, 95, rfl⟩
abbrev main_v67 : Ref sig .tc := ⟨.hbm, 96, rfl⟩
abbrev main_v68 : Ref sig .tc := ⟨.hbm, 97, rfl⟩
abbrev main_c_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_12 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_13 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_14 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_16 : Ref sig .tc := ⟨.hbm, 131, rfl⟩
abbrev main_v97 : Ref sig .tc := ⟨.hbm, 132, rfl⟩
abbrev main_v98 : Ref sig .tc := ⟨.hbm, 133, rfl⟩
abbrev main_cst_17 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_18 : Ref sig .tc := ⟨.hbm, 140, rfl⟩
abbrev main_v104 : Ref sig .tc := ⟨.hbm, 141, rfl⟩
abbrev main_v105 : Ref sig .tc := ⟨.hbm, 142, rfl⟩
abbrev main_cst_19 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_20 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_call0_cst : Ref sig .tc := ⟨.hbm, 160, rfl⟩
abbrev main_call0_v0 : Ref sig .tc := ⟨.hbm, 161, rfl⟩
abbrev main_v121 : Ref sig .tc := ⟨.hbm, 162, rfl⟩
abbrev main_cst_21 : Ref sig .tc := ⟨.hbm, 163, rfl⟩
abbrev main_v122 : Ref sig .tc := ⟨.hbm, 164, rfl⟩
abbrev main_v123 : Ref sig .tc := ⟨.hbm, 165, rfl⟩
abbrev main_cst_22 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_23 : Ref sig .tc := ⟨.hbm, 172, rfl⟩
abbrev main_v129 : Ref sig .tc := ⟨.hbm, 173, rfl⟩
abbrev main_v130 : Ref sig .tc := ⟨.hbm, 174, rfl⟩
abbrev main_cst_24 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_25 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_call1_cst : Ref sig .tc := ⟨.hbm, 192, rfl⟩
abbrev main_call1_v0 : Ref sig .tc := ⟨.hbm, 193, rfl⟩
abbrev main_v146 : Ref sig .tc := ⟨.hbm, 194, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with its two result arrays read.

  The program is a stretch of host operations (the gathers, the segment sums, the reciprocal counts, the transposed
  and summed weights), then the type-A combine region, then the type-B combine region.  The frame module
  names the buffer contents at each boundary: `W1` after the host stretch, `W2` after the first region, `W3` after the
  second.  Launching the three segments exactly as the frame theorem does, and reading every unscoped buffer of the
  final state against `W3`, gives in addition to the unchanged arguments that each result buffer ends holding `W3` at
  its reference; the later modules compute `W3` there.
-/
import proofs.«132773_j24696061952069_2_alg».proof.Proof.KernelIdealFrameP

set_option maxRecDepth 16384

noncomputable section

namespace Cert.Sage.KernelRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; the two results end at the last
    boundary's contents and the arguments end as launched. -/
theorem run_results : θ_run defs (onTc (τ := τ) (main (F := F))) ⟨m, fun _ => 0, ρ⟩ (fun r => ∀ c : Dev nD,
      r.2.mem ((c.tc : Thread nD τ).loc main_v85) = W3 m ρ c (Proc.devRef .tc main_v85)
      ∧ r.2.mem ((c.tc : Thread nD τ).loc main_v86) = W3 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v85 (by decide)),
       h c _ (mem_uc main_v86 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c)⟩)

end Cert.Sage.KernelRun

end
-- ==== Proof.Spec.lean ====
/-
  The function both programs compute, stated once, index by index, over the extended reals.

  One SAGE convolution sends destination row `r` to
      conv r j = (∑ₖ (s r k / max (c r) 1) · Wl j k + ∑ₖ x r k · Wr j k) + b j,
  where `s` is the per-destination sum of gathered source rows and `c` the per-destination edge count (both are the
  same host terms in the two programs and stay opaque here).  Destination type A adds two convolutions, type B has
  one; each row is then layer-normalised over its 128 entries,
      μ = (∑ₖ pₖ) / 128,  σ² = (∑ₖ (pₖ - μ)²) / 128,  out j = max (((p j - μ) · rsqrt (σ² + ε)) · γ j + β j) 0.

  The kernel multiplies by a precomputed reciprocal `1 / max c 1` where the reference divides, adds the two root
  weight matrices (and the two biases) before its single root product, and groups the sums differently.  The laws
  that join the two spellings are here: `s · (1 / c') = s / c'` for `c' = max c 1 ≠ 0` (valid on all extended reals),
  and `∑ x·(a + b) = ∑ x·a + ∑ x·b`, which needs the factors to be real numbers — the one place finiteness is used.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A matrix / a vector of extended reals over literal extents. -/
abbrev A2 (n k : ℕ) := (⟨2, ![n, k]⟩ : Shape).Idx → EReal
abbrev A1 (n : ℕ) := (⟨1, ![n]⟩ : Shape).Idx → EReal

/-- The float words the two programs spell: 0, 1, 128 and ε = f32(1e-5); the same words on both sides. -/
abbrev w0 : EReal := Ideal.ofBits .f32 0x00000000#32
abbrev w1 : EReal := Ideal.ofBits .f32 0x3F800000#32
abbrev w128 : EReal := Ideal.ofBits .f32 0x43000000#32
abbrev wEps : EReal := Ideal.ofBits .f32 0x3727C5AC#32

/-- A row's mean. -/
def mu (p : Fin 128 → EReal) : EReal := Ideal.div (∑ k, p k) w128
/-- A row's (biased) variance. -/
def var (p : Fin 128 → EReal) : EReal := Ideal.div (∑ k, (p k - mu p) * (p k - mu p)) w128
/-- LayerNorm of a row with scale `g` and shift `b`, then relu. -/
def rowOut (p g b : Fin 128 → EReal) (j : Fin 128) : EReal :=
  max ((p j - mu p) * Ideal.rsqrt (var p + wEps) * g j + b j) w0

/-- One SAGE convolution at destination row `r`, output feature `j`. -/
def conv {n : ℕ} (s : A2 n 128) (c : A2 n 1) (x : A2 n 128) (Wl Wr : A2 128 128) (b : A1 128)
    (r : Fin n) (j : Fin 128) : EReal :=
  (∑ k : Fin 128, Ideal.div (s (ix2 r k)) (max (c (ix2 r (0 : Fin 1))) w1) * Wl (ix2 j k)
    + ∑ k : Fin 128, x (ix2 r k) * Wr (ix2 j k)) + b (ix1 j)

/-- Destination type A: two convolutions into the same rows, LayerNorm, relu. -/
def rowA (saa : A2 50000 128) (caa : A2 50000 1) (sba : A2 50000 128) (cba : A2 50000 1) (x : A2 50000 128)
    (Wlaa Wraa : A2 128 128) (baa : A1 128) (Wlba Wrba : A2 128 128) (bba : A1 128) (g b : A1 128)
    (r : Fin 50000) (j : Fin 128) : EReal :=
  rowOut (fun j' => conv saa caa x Wlaa Wraa baa r j' + conv sba cba x Wlba Wrba bba r j')
    (fun j' => g (ix1 j')) (fun j' => b (ix1 j')) j

/-- Destination type B: one convolution, LayerNorm, relu. -/
def rowB (sab : A2 50000 128) (cab : A2 50000 1) (x : A2 50000 128) (Wl Wr : A2 128 128) (bab : A1 128) (g b : A1 128)
    (r : Fin 50000) (j : Fin 128) : EReal :=
  rowOut (fun j' => conv sab cab x Wl Wr bab r j') (fun j' => g (ix1 j')) (fun j' => b (ix1 j')) j

/-- The two result arrays. -/
def arrA (saa : A2 50000 128) (caa : A2 50000 1) (sba : A2 50000 128) (cba : A2 50000 1) (x : A2 50000 128)
    (Wlaa Wraa : A2 128 128) (baa : A1 128) (Wlba Wrba : A2 128 128) (bba : A1 128) (g b : A1 128) : A2 50000 128 :=
  fun i => rowA saa caa sba cba x Wlaa Wraa baa Wlba Wrba bba g b (i 0) (i 1)
def arrB (sab : A2 50000 128) (cab : A2 50000 1) (x : A2 50000 128) (Wl Wr : A2 128 128) (bab : A1 128) (g b : A1 128) :
    A2 50000 128 :=
  fun i => rowB sab cab x Wl Wr bab g b (i 0) (i 1)

/-! ## The laws -/

/-- The word `1.0` denotes 1. -/
theorem w1_eq : w1 = 1 := by
  show Ideal.ofBits .f32 0x3F800000#32 = 1
  simp [Ideal.ofBits, Ideal.ieee, -EReal.coe_mul]; norm_num

/-- A count clamped below by one is not zero. -/
theorem max_one_ne_zero (c : EReal) : max c w1 ≠ 0 := by
  rw [w1_eq]
  exact ne_of_gt (lt_of_lt_of_le zero_lt_one (le_max_right c 1))

/-- Multiplying by the reciprocal of a clamped count is dividing by it, on every extended real. -/
theorem mul_recip (s c : EReal) : s * Ideal.div w1 (max c w1) = Ideal.div s (max c w1) := by
  unfold Ideal.div
  rw [if_neg (max_one_ne_zero c), if_neg (max_one_ne_zero c), w1_eq, one_mul]

/-- Distributivity for real factors. -/
theorem mul_add_of_real {x a b : EReal} (hx : x ≠ ⊤ ∧ x ≠ ⊥) (ha : a ≠ ⊤ ∧ a ≠ ⊥) (hb : b ≠ ⊤ ∧ b ≠ ⊥) :
    x * (a + b) = x * a + x * b := by
  lift x to ℝ using hx
  lift a to ℝ using ha
  lift b to ℝ using hb
  norm_cast
  ring

/-- A product against a sum of two matrices' rows splits, when every factor is real. -/
theorem sum_mul_add_of_real {ι : Type} [Fintype ι] (x a b : ι → EReal) (hx : ∀ k, x k ≠ ⊤ ∧ x k ≠ ⊥)
    (ha : ∀ k, a k ≠ ⊤ ∧ a k ≠ ⊥) (hb : ∀ k, b k ≠ ⊤ ∧ b k ≠ ⊥) :
    ∑ k, x k * (a k + b k) = ∑ k, x k * a k + ∑ k, x k * b k := by
  rw [← Finset.sum_add_distrib]
  exact Finset.sum_congr rfl fun k _ => mul_add_of_real (hx k) (ha k) (hb k)

/-- The kernel's spelling of a type-A row before LayerNorm is the reference's: reciprocal counts, the summed root
    weights and biases, and the regrouped sums. -/
theorem preA_eq (sa sb x wla wlb wra wrb : Fin 128 → EReal) (ca cb ba bb : EReal)
    (hx : ∀ k, x k ≠ ⊤ ∧ x k ≠ ⊥) (ha : ∀ k, wra k ≠ ⊤ ∧ wra k ≠ ⊥) (hb : ∀ k, wrb k ≠ ⊤ ∧ wrb k ≠ ⊥) :
    ((∑ k, (sa k * Ideal.div w1 (max ca w1)) * wla k + ∑ k, (sb k * Ideal.div w1 (max cb w1)) * wlb k)
        + ∑ k, x k * (wra k + wrb k)) + (ba + bb)
      = ((∑ k, Ideal.div (sa k) (max ca w1) * wla k + ∑ k, x k * wra k) + ba)
        + ((∑ k, Ideal.div (sb k) (max cb w1) * wlb k + ∑ k, x k * wrb k) + bb) := by
  rw [sum_mul_add_of_real x wra wrb hx ha hb]
  simp only [mul_recip]
  rw [add_add_add_comm (∑ k, Ideal.div (sa k) (max ca w1) * wla k), add_add_add_comm _ _ ba bb]

/-- The same for a type-B row: only the reciprocal count differs. -/
theorem preB_eq (s x wl wr : Fin 128 → EReal) (c b : EReal) :
    (∑ k, (s k * Ideal.div w1 (max c w1)) * wl k + ∑ k, x k * wr k) + b
      = (∑ k, Ideal.div (s k) (max c w1) * wl k + ∑ k, x k * wr k) + b := by
  simp only [mul_recip]

end Cert.Sage

end
-- ==== Proof.KSpec.lean ====
/-
  The kernel's spelling of a row before LayerNorm, over any number of rows.

  The combine kernels receive per-destination sums `s`, columns of reciprocal clamped counts `ι`, the root features `x`,
  weight matrices already transposed (so entry `(k, j)` multiplies input feature `k` into output feature `j`) and a bias.
  The same expression describes one grid point's block (2000 or 5000 rows) and the whole array (50000 rows): a block's
  row `p` is the array's row `r` when the block's entries are the array's entries of that row.
-/
import proofs.«132773_j24696061952069_2_alg».proof.Proof.Spec

noncomputable section

namespace Cert.Sage

open Idealize.ShloMosaic Idealize.ShloMosaic.ValueIdx

/-- Type A: two scaled neighbour aggregates through their matrices, the root features through one matrix, one bias. -/
def preKA {n : ℕ} (s1 : A2 n 128) (i1 : A2 n 1) (s2 : A2 n 128) (i2 : A2 n 1) (x : A2 n 128) (w1 w2 w3 : A2 128 128) (b : A1 128)
    (r : Fin n) (j : Fin 128) : EReal :=
  ((∑ k : Fin 128, (s1 (ix2 r k) * i1 (ix2 r (0 : Fin 1))) * w1 (ix2 k j)
      + ∑ k : Fin 128, (s2 (ix2 r k) * i2 (ix2 r (0 : Fin 1))) * w2 (ix2 k j))
    + ∑ k : Fin 128, x (ix2 r k) * w3 (ix2 k j)) + b (ix1 j)

/-- Type B: one scaled neighbour aggregate, the root features, one bias. -/
def preKB {n : ℕ} (s : A2 n 128) (i : A2 n 1) (x : A2 n 128) (w1 w2 : A2 128 128) (b : A1 128) (r : Fin n) (j : Fin 128) : EReal :=
  (∑ k : Fin 128, (s (ix2 r k) * i (ix2 r (0 : Fin 1))) * w1 (ix2 k j) + ∑ k : Fin 128, x (ix2 r k) * w2 (ix2 k j)) + b (ix1 j)

/-- The kernels' result arrays in their own spelling, as functions of the arrays their windows read. -/
def outKA (s1 : A2 50000 128) (i1 : A2 50000 1) (s2 : A2 50000 128) (i2 : A2 50000 1) (x : A2 50000 128) (w1 w2 w3 : A2 128 128)
    (b g β : A1 128) : A2 50000 128 :=
  fun i => rowOut (fun j => preKA s1 i1 s2 i2 x w1 w2 w3 b (i 0) j) (fun j => g (ix1 j)) (fun j => β (ix1 j)) (i 1)
def outKB (s : A2 50000 128) (i1 : A2 50000 1) (x : A2 50000 128) (w1 w2 : A2 128 128) (b g β : A1 128) : A2 50000 128 :=
  fun i => rowOut (fun j => preKB s i1 x w1 w2 b (i 0) j) (fun j => g (ix1 j)) (fun j => β (ix1 j)) (i 1)

end Cert.Sage

end
-- ==== Proof.Rows.lean ====
/-
  Layout operations of a row block read at an index given by coordinates: the keep-dimension forms a row-wise
  normalisation uses.  A vector of per-row values becomes a column, a column is repeated along the lanes, and a
  lane sum of a block is, row by row, the sum of the row's 128 entries.  Stated for the two block heights the
  kernel uses (2000 and 5000 rows).
-/
import Idealize.ShloMosaic.Lib.ValueLayout
import Idealize.ShloMosaic.Lib.Pipeline.Value
import Idealize.ShloMosaic.Lib.ValueIdx
import Idealize.ShloMosaic.PureOps.Ideal.Laws

noncomputable section

namespace Cert.Sage.Rows

open Idealize.ShloMosaic Idealize.ShloMosaic.ValueIdx

/-! ## Row blocks of 2000 rows -/

/-- A length-2000 vector cast to a column reads, at `(p, u)`, the vector at `p`. -/
theorem col2000 {α : Type} (x : (⟨1, ![2000]⟩ : Shape).Idx → α) (h : (⟨1, ![2000]⟩ : Shape).ShapeCasts ⟨2, ![2000, 1]⟩)
    (p : Fin 2000) (u : Fin 1) : shapeCast ⟨2, ![2000, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column broadcast along the 128 lanes reads, at `(p, q)`, the column at `p`. -/
theorem lanes2000 {α : Type} (v : (⟨2, ![2000, 1]⟩ : Shape).Idx → α) (h : (⟨2, ![2000, 1]⟩ : Shape).Broadcasts ⟨2, ![2000, 128]⟩)
    (p : Fin 2000) (q : Fin 128) : broadcastTo ⟨2, ![2000, 128]⟩ v h (ix2 p q) = v (ix2 p (0 : Fin 1)) := by
  refine broadcastTo_apply v h (ix2 p q) (ix2 p (0 : Fin 1)) fun ax => ?_
  match ax with
  | ⟨0, _⟩ =>
    show p.val = if (2000 : ℕ) = 1 then 0 else p.val
    split
    · omega
    · rfl
  | ⟨1, _⟩ => rfl

/-- A lane sum of a 2000×128 block reads, at row `p`, the sum of that row's 128 entries. -/
theorem rowsum2000 (src : FVec Ideal ⟨2, ![2000, 128]⟩ .f32) (h : (⟨2, ![2000, 128]⟩ : Shape).Reduces [1] ⟨1, ![2000]⟩)
    (hφ : FKind.Formats .f32) (hacc : (0x00000000#32 : BitVec 32) = 0x00000000#32) (p : Fin 2000) :
    multiReduction .add [1] ⟨1, ![2000]⟩ src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-! ## Row blocks of 5000 rows -/

/-- A length-5000 vector cast to a column reads, at `(p, u)`, the vector at `p`. -/
theorem col5000 {α : Type} (x : (⟨1, ![5000]⟩ : Shape).Idx → α) (h : (⟨1, ![5000]⟩ : Shape).ShapeCasts ⟨2, ![5000, 1]⟩)
    (p : Fin 5000) (u : Fin 1) : shapeCast ⟨2, ![5000, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column broadcast along the 128 lanes reads, at `(p, q)`, the column at `p`. -/
theorem lanes5000 {α : Type} (v : (⟨2, ![5000, 1]⟩ : Shape).Idx → α) (h : (⟨2, ![5000, 1]⟩ : Shape).Broadcasts ⟨2, ![5000, 128]⟩)
    (p : Fin 5000) (q : Fin 128) : broadcastTo ⟨2, ![5000, 128]⟩ v h (ix2 p q) = v (ix2 p (0 : Fin 1)) := by
  refine broadcastTo_apply v h (ix2 p q) (ix2 p (0 : Fin 1)) fun ax => ?_
  match ax with
  | ⟨0, _⟩ =>
    show p.val = if (5000 : ℕ) = 1 then 0 else p.val
    split
    · omega
    · rfl
  | ⟨1, _⟩ => rfl

/-- A lane sum of a 5000×128 block reads, at row `p`, the sum of that row's 128 entries. -/
theorem rowsum5000 (src : FVec Ideal ⟨2, ![5000, 128]⟩ .f32) (h : (⟨2, ![5000, 128]⟩ : Shape).Reduces [1] ⟨1, ![5000]⟩)
    (hφ : FKind.Formats .f32) (hacc : (0x00000000#32 : BitVec 32) = 0x00000000#32) (p : Fin 5000) :
    multiReduction .add [1] ⟨1, ![5000]⟩ src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

end Cert.Sage.Rows

end
-- ==== Proof.PayA.lean ====
/-
  The type-A combine body read at an index.

  One grid point handles a block of 2000 destination rows.  Its body is a pure function of the loaded blocks; read at
  row `p`, lane `q` it is the LayerNorm-and-relu of the row `p` of the pre-activation, whose entry `j` is a sum of
  128-term products of the block's rows with the (already transposed) weight matrices plus the bias.  A change of float
  format is the identity on the extended reals, a matrix product into a zero accumulator is the plain sum over the
  contracted coordinate, and a lane sum is the sum of the row's entries.
-/
import proofs.«132773_j24696061952069_2_alg».proof.Proof.Gen.KernelIdeal.Skeleton
import proofs.«132773_j24696061952069_2_alg».proof.Proof.KSpec
import proofs.«132773_j24696061952069_2_alg».proof.Proof.Rows
import Idealize.ShloMosaic.Lib.ValueLayout
import Idealize.ShloMosaic.Lib.ValueIdx
import Idealize.ShloMosaic.PureOps.Ideal.Laws

set_option maxRecDepth 16384

noncomputable section

namespace Cert.Sage.PayA

open Cert.KernelIdeal Cert.KernelIdeal.Gen Idealize.ShloMosaic Idealize.ShloMosaic.ValueIdx Cert.Sage Cert.Sage.Rows

/-- The block-times-matrix product's dimension record. -/
abbrev dotK := dot_S2000x128_S128x128_S2000x128_1_0_0_1_n_n

theorem dotK_lhs0 (i : S2000x128.Idx) (c : dotK.contr.Idx) : (dotK.lhsIdx i c 0).val = (i 0).val := by
  unfold DotDims.lhsIdx
  rw [dif_neg (show ¬(0 : Fin S2000x128.rank) ∈ dotK.lhsBatch by decide), dif_pos (show (0 : Fin S2000x128.rank) ∈ dotK.lhsNonContracting by decide)]
  rfl
theorem dotK_lhs1 (i : S2000x128.Idx) (c : dotK.contr.Idx) : (dotK.lhsIdx i c 1).val = (c ⟨0, by decide⟩).val :=
  dotK.lhsIdx_val_of_single rfl i c
theorem dotK_rhs0 (i : S2000x128.Idx) (c : dotK.contr.Idx) : (dotK.rhsIdx i c 0).val = (c ⟨0, by decide⟩).val :=
  dotK.rhsIdx_val_of_single rfl i c
theorem dotK_rhs1 (i : S2000x128.Idx) (c : dotK.contr.Idx) : (dotK.rhsIdx i c 1).val = (i 1).val := by
  unfold DotDims.rhsIdx
  rw [dif_neg (show ¬(1 : Fin S128x128.rank) ∈ dotK.rhsBatch by decide), dif_pos (show (1 : Fin S128x128.rank) ∈ dotK.rhsNonContracting by decide)]
  rfl

/-- A 2000×128 block times a 128×128 matrix into a zero accumulator, at `(p, q)`: the sum over `k` of row `p` of the block
    against column `q` of the matrix. -/
theorem mm (lhs : FVec Ideal S2000x128 .bf16) (rhs : FVec Ideal S128x128 .bf16) (p : Fin 2000) (q : Fin 128) :
    matmul (F := Ideal) dotK none lhs rhs (constant (F := Ideal) S2000x128 .f32 0x00000000#32) (ix2 p q)
      = ∑ k : Fin 128, lhs (ix2 p k) * rhs (ix2 k q) := by
  refine (Ideal.matmul_constant_zero_apply dotK none lhs rhs (ix2 p q)).trans ?_
  rw [← Equiv.sum_comp (contrEquiv1 dotK 128 rfl rfl).symm]
  refine Finset.sum_congr rfl fun k _ => ?_
  have hk := contrEquiv1_symm_val dotK 128 rfl rfl k
  have el : dotK.lhsIdx (ix2 p q) ((contrEquiv1 dotK 128 rfl rfl).symm k) = ix2 p k := funext fun a => Fin.ext (by
    match a with
    | ⟨0, _⟩ => exact dotK_lhs0 _ _
    | ⟨1, _⟩ => exact (dotK_lhs1 _ _).trans hk)
  have er : dotK.rhsIdx (ix2 p q) ((contrEquiv1 dotK 128 rfl rfl).symm k) = ix2 k q := funext fun a => Fin.ext (by
    match a with
    | ⟨0, _⟩ => exact (dotK_rhs0 _ _).trans hk
    | ⟨1, _⟩ => exact dotK_rhs1 _ _)
  rw [el, er]

/-- The lane sum in the program's own spelling of the shapes. -/
theorem rowsumK (src : FVec Ideal S2000x128 .f32) (hφ : FKind.Formats .f32)
    (hacc : (0x00000000#32 : BitVec 32) = 0x00000000#32) (p : Fin 2000) :
    multiReduction .add [1] S2000 src 0x00000000#32 reduces_S2000x128_S2000 hφ hacc (ix1 p) = ∑ k : Fin 128, src (ix2 p k) := by
  refine (Ideal.multiReduction_add_single src 0x00000000#32 reduces_S2000x128_S2000 hφ hacc (ix1 p)).trans ?_
  refine Finset.sum_congr rfl fun k _ => congrArg src (funext fun a => Fin.ext ?_)
  match a with
  | ⟨0, _⟩ => rfl
  | ⟨1, _⟩ => rfl

/-- Elementwise reciprocal square root at an index. -/
theorem rsqrt_at {s : Shape} (a : FVec Ideal s .f32) (i : s.Idx) : rsqrt a i = Ideal.rsqrt (a i) := rfl
/-- A float word read as a scalar is the extended real its pattern denotes. -/
theorem scalar_word (w : BitVec 32) : Scalar.ofBits (F := Ideal) .f32 w = Ideal.ofBits .f32 w := rfl

theorem pay2_at (v0 : FVec Ideal S2000x128 .f32) (v2 : FVec Ideal S2000x1 .f32) (v7 : FVec Ideal S2000x128 .f32) (v9 : FVec Ideal S2000x1 .f32)
    (v14 : FVec Ideal S2000x128 .f32) (v16 v19 v22 : FVec Ideal S128x128 .f32) (v30 : FVec Ideal S128 .f32) (p : Fin 2000) (q : Fin 128) :
    k0_pay2 (F := Ideal) v0 v2 v7 v9 v14 v16 v19 v22 v30 (ix2 p q) = preKA v0 v2 v7 v9 v14 v16 v19 v22 v30 p q := by
  unfold k0_pay2 preKA
  simp only [addf_apply, mm, truncf_apply, mulf_apply, shapeCast_self, lanes2000, broadcastTo_1b_ab_apply, shapeCast_a_1a_apply]

theorem pay3_at (v0 : FVec Ideal S2000x128 .f32) (v2 : FVec Ideal S2000x1 .f32) (v7 : FVec Ideal S2000x128 .f32) (v9 : FVec Ideal S2000x1 .f32)
    (v14 : FVec Ideal S2000x128 .f32) (v16 v19 v22 : FVec Ideal S128x128 .f32) (v30 : FVec Ideal S128 .f32) (p : Fin 2000) (u : Fin 1) :
    k0_pay3 (F := Ideal) v0 v2 v7 v9 v14 v16 v19 v22 v30 (ix2 p u) = ∑ k : Fin 128, preKA v0 v2 v7 v9 v14 v16 v19 v22 v30 p k := by
  unfold k0_pay3
  refine (col2000 _ shapeCasts_S2000_S2000x1 p u).trans ?_
  refine (rowsumK _ (.inl rfl) rfl p).trans ?_
  exact Finset.sum_congr rfl fun k _ => pay2_at v0 v2 v7 v9 v14 v16 v19 v22 v30 p k

/-- The block's lane sum. -/
def red (y : FVec Ideal S2000x128 .f32) : FVec Ideal S2000 .f32 :=
  multiReduction .add [1] S2000 y 0x00000000#32 reduces_S2000x128_S2000 (.inl rfl) rfl
theorem red_at (y : FVec Ideal S2000x128 .f32) (p : Fin 2000) : red y (ix1 p) = ∑ k : Fin 128, y (ix2 p k) :=
  rowsumK y (.inl rfl) rfl p

/-- The stored value as a function of the pre-activation block `v34`, its row sums `v36`, the divisor `c`, scale and
    shift, with the lane sum of the squared deviations taken by `R`: centre, divide the summed squares by 128, add ε,
    reciprocal square root, scale, shift, relu. -/
def stored (R : FVec Ideal S2000x128 .f32 → FVec Ideal S2000 .f32) (v34 : FVec Ideal S2000x128 .f32) (v36 : FVec Ideal S2000x1 .f32)
    (c : Ideal .f32) (v53 v57 : FVec Ideal S128 .f32) : FVec Ideal S2000x128 .f32 :=
  maximumf
    (addf
      (mulf
        (mulf (subf v34 (broadcastTo S2000x128 (divf v36 (broadcast S2000x1 c)) broadcasts_S2000x1_S2000x128))
          (broadcastTo S2000x128
            (rsqrt (addf
              (divf
                (shapeCast S2000x1
                  (R (mulf (subf v34 (broadcastTo S2000x128 (divf v36 (broadcast S2000x1 c)) broadcasts_S2000x1_S2000x128))
                          (subf v34 (broadcastTo S2000x128 (divf v36 (broadcast S2000x1 c)) broadcasts_S2000x1_S2000x128))))
                  shapeCasts_S2000_S2000x1)
                (broadcast S2000x1 (Scalar.ofBits (F := Ideal) .f32 0x43000000#32)))
              (broadcast S2000x1 (Scalar.ofBits (F := Ideal) .f32 0x3727C5AC#32))))
            broadcasts_S2000x1_S2000x128))
        (broadcastTo S2000x128 (shapeCast S1x128 v53 shapeCasts_S128_S1x128) broadcasts_S1x128_S2000x128))
      (broadcastTo S2000x128 (shapeCast S1x128 v57 shapeCasts_S128_S1x128) broadcasts_S1x128_S2000x128))
    (broadcast S2000x128 (Scalar.ofBits (F := Ideal) .f32 0x00000000#32))

/-- The generated payload is that function with the block's own lane sum. -/
theorem pay1_eq (v34 : FVec Ideal S2000x128 .f32) (v36 : FVec Ideal S2000x1 .f32) (c : Ideal .f32) (v53 v57 : FVec Ideal S128 .f32) :
    k0_pay1 (F := Ideal) v34 v36 c v53 v57 = stored red v34 v36 c v53 v57 := rfl

/-- Read at `(p, q)`, given the row `P` of the pre-activation and that `v36` holds its sum: LayerNorm and relu of `P`. -/
theorem stored_at (R : FVec Ideal S2000x128 .f32 → FVec Ideal S2000 .f32)
    (hR : ∀ (y : FVec Ideal S2000x128 .f32) (p : Fin 2000), R y (ix1 p) = ∑ k : Fin 128, y (ix2 p k))
    (v34 : FVec Ideal S2000x128 .f32) (v36 : FVec Ideal S2000x1 .f32) (v53 v57 : FVec Ideal S128 .f32)
    (p : Fin 2000) (q : Fin 128)
    (P : Fin 128 → EReal) (hP : ∀ j, v34 (ix2 p j) = P j) (hS : v36 (ix2 p (0 : Fin 1)) = ∑ k : Fin 128, P k) :
    stored R v34 v36 (Scalar.ofBits (F := Ideal) .f32 0x43000000#32) v53 v57 (ix2 p q)
      = rowOut P (fun j => v53 (ix1 j)) (fun j => v57 (ix1 j)) q := by
  unfold stored
  simp only [rowOut, mu, var, maximumf_apply, addf_apply, mulf_apply, subf_apply, divf_apply, broadcast_apply, rsqrt_at, scalar_word,
    lanes2000, col2000, hR, broadcastTo_1b_ab_apply, shapeCast_a_1a_apply, hP, hS]

/-- The stored value at `(p, q)`: LayerNorm and relu of row `p` of the pre-activation. -/
theorem pay1_at (v34 : FVec Ideal S2000x128 .f32) (v36 : FVec Ideal S2000x1 .f32) (v53 v57 : FVec Ideal S128 .f32)
    (p : Fin 2000) (q : Fin 128)
    (P : Fin 128 → EReal) (hP : ∀ j, v34 (ix2 p j) = P j) (hS : v36 (ix2 p (0 : Fin 1)) = ∑ k : Fin 128, P k) :
    k0_pay1 (F := Ideal) v34 v36 (Scalar.ofBits .f32 0x43000000#32) v53 v57 (ix2 p q)
      = rowOut P (fun j => v53 (ix1 j)) (fun j => v57 (ix1 j)) q := by
  rw [pay1_eq]
  exact stored_at red red_at v34 v36 v53 v57 p q P hP hS

end Cert.Sage.PayA

end
-- ==== Proof.ValA.lean ====
/-
  What the type-A combine region leaves in its output array.

  Grid point `t` (of 25) fetches rows `2000·t … 2000·t + 1999` of the five row-blocked operands, the whole of the three
  weight matrices and the three vectors, and writes back rows `2000·t …` of the result.  So the block's row `p` is the
  array's row `2000·t + p`, the 25 written blocks tile the 50000 rows, and the array ends holding, at every index,
  the body's function of the operand arrays as the region finds them.
-/
import proofs.«132773_j24696061952069_2_alg».proof.Proof.KernelIdealFrameP
import proofs.«132773_j24696061952069_2_alg».proof.Proof.PayA
import Idealize.ShloMosaic.Lib.Pipeline.Value

set_option maxRecDepth 16384

noncomputable section

namespace Cert.Sage.ValA

open Cert.KernelIdeal Cert.KernelIdeal.Gen Cert.KernelIdeal.GenP
open Idealize.ShloMosaic Idealize.ShloMosaic.TcCoe Idealize.SL.Sem Idealize.ShloMosaic.ValueIdx Cert.Sage
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's result from the loaded blocks, at row `p`, lane `q`. -/
theorem out_at (x0 : Vec Ideal S2000x128 .f32) (x1 : Vec Ideal S2000x1 .f32) (x2 : Vec Ideal S2000x128 .f32) (x3 : Vec Ideal S2000x1 .f32)
    (x4 : Vec Ideal S2000x128 .f32) (x5 x6 x7 : Vec Ideal S128x128 .f32) (x8 x9 x10 : Vec Ideal S128 .f32) (p : Fin 2000) (q : Fin 128) :
    out0_11 (F := Ideal) x0 x1 x2 x3 x4 x5 x6 x7 x8 x9 x10 (ix2 p q)
      = rowOut (fun j => preKA x0 x1 x2 x3 x4 x5 x6 x7 x8 p j) (fun j => x9 (ix1 j)) (fun j => x10 (ix1 j)) q := by
  unfold out0_11
  rw [View.canon_unit_zero hz2]
  simp only [View.ld_unit_zero (S := S2000x128) hz2, View.ld_unit_zero (S := S2000x1) hz2, View.ld_unit_zero (S := S128x128) hz2,
    View.ld_unit_zero (S := S128) hz1]
  exact PayA.pay1_at _ _ _ _ p q _ (fun j => PayA.pay2_at x0 x1 x2 x3 x4 x5 x6 x7 x8 p j) (PayA.pay3_at x0 x1 x2 x3 x4 x5 x6 x7 x8 p 0)

/-- The printed index maps over the grid: the row-blocked windows move with the point, the others stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0 ∧ win0_9.index t (0 : Fin 1) = 0 ∧ win0_10.index t (0 : Fin 1) = 0
    ∧ win0_11.index t (0 : Fin 2) = t.val ∧ win0_11.index t (1 : Fin 2) = 0 :=
  (by decide +kernel : ∀ t : Fin grid0.N, _)

theorem t_lt (t : Fin cfg0.N) : t.val < 25 := by
  have h := t.isLt
  have e : cfg0.N = 25 := N_0
  omega

/-- The array row that point `t`'s block row `p` is. -/
def rowOf (t : Fin cfg0.N) (p : Fin 2000) : Fin 50000 := ⟨t.val * 2000 + p.val, by have := t_lt t; have := p.isLt; omega⟩

/-! ## Each window's block, read through the array -/

theorem blk0_at (c : Dev nD) (t : Fin cfg0.N) (p : Fin 2000) (k : Fin 128) :
    iblk0 V c 0 t (ix2 p k) = (V c (Pipeline.arrRef spec0 0) : S50000x128.Idx → EReal) (ix2 (rowOf t p) k) := by
  show V c (Pipeline.arrRef spec0 0) (((cfg0.win 0).blk t).view.emb (ix2 p k)) = _
  refine congrArg _ (funext fun a => Fin.ext ?_)
  have e := idx_facts t
  match a with
  | ⟨0, _⟩ => show win0_0.index t (0 : Fin 2) * 2000 + 1 * p.val = t.val * 2000 + p.val; omega
  | ⟨1, _⟩ => show win0_0.index t (1 : Fin 2) * 128 + 1 * k.val = k.val; omega

theorem blk1_at (c : Dev nD) (t : Fin cfg0.N) (p : Fin 2000) (u : Fin 1) :
    iblk0 V c 1 t (ix2 p u) = (V c (Pipeline.arrRef spec0 1) : S50000x1.Idx → EReal) (ix2 (rowOf t p) u) := by
  show V c (Pipeline.arrRef spec0 1) (((cfg0.win 1).blk t).view.emb (ix2 p u)) = _
  refine congrArg _ (funext fun a => Fin.ext ?_)
  have e := idx_facts t
  match a with
  | ⟨0, _⟩ => show win0_1.index t (0 : Fin 2) * 2000 + 1 * p.val = t.val * 2000 + p.val; omega
  | ⟨1, _⟩ => show win0_1.index t (1 : Fin 2) * 1 + 1 * u.val = u.val; omega

theorem blk2_at (c : Dev nD) (t : Fin cfg0.N) (p : Fin 2000) (k : Fin 128) :
    iblk0 V c 2 t (ix2 p k) = (V c (Pipeline.arrRef spec0 2) : S50000x128.Idx → EReal) (ix2 (rowOf t p) k) := by
  show V c (Pipeline.arrRef spec0 2) (((cfg0.win 2).blk t).view.emb (ix2 p k)) = _
  refine congrArg _ (funext fun a => Fin.ext ?_)
  have e := idx_facts t
  match a with
  | ⟨0, _⟩ => show win0_2.index t (0 : Fin 2) * 2000 + 1 * p.val = t.val * 2000 + p.val; omega
  | ⟨1, _⟩ => show win0_2.index t (1 : Fin 2) * 128 + 1 * k.val = k.val; omega

theorem blk3_at (c : Dev nD) (t : Fin cfg0.N) (p : Fin 2000) (u : Fin 1) :
    iblk0 V c 3 t (ix2 p u) = (V c (Pipeline.arrRef spec0 3) : S50000x1.Idx → EReal) (ix2 (rowOf t p) u) := by
  show V c (Pipeline.arrRef spec0 3) (((cfg0.win 3).blk t).view.emb (ix2 p u)) = _
  refine congrArg _ (funext fun a => Fin.ext ?_)
  have e := idx_facts t
  match a with
  | ⟨0, _⟩ => show win0_3.index t (0 : Fin 2) * 2000 + 1 * p.val = t.val * 2000 + p.val; omega
  | ⟨1, _⟩ => show win0_3.index t (1 : Fin 2) * 1 + 1 * u.val = u.val; omega

theorem blk4_at (c : Dev nD) (t : Fin cfg0.N) (p : Fin 2000) (k : Fin 128) :
    iblk0 V c 4 t (ix2 p k) = (V c (Pipeline.arrRef spec0 4) : S50000x128.Idx → EReal) (ix2 (rowOf t p) k) := by
  show V c (Pipeline.arrRef spec0 4) (((cfg0.win 4).blk t).view.emb (ix2 p k)) = _
  refine congrArg _ (funext fun a => Fin.ext ?_)
  have e := idx_facts t
  match a with
  | ⟨0, _⟩ => show win0_4.index t (0 : Fin 2) * 2000 + 1 * p.val = t.val * 2000 + p.val; omega
  | ⟨1, _⟩ => show win0_4.index t (1 : Fin 2) * 128 + 1 * k.val = k.val; omega

theorem blk5_at (c : Dev nD) (t : Fin cfg0.N) (k j : Fin 128) :
    iblk0 V c 5 t (ix2 k j) = (V c (Pipeline.arrRef spec0 5) : S128x128.Idx → EReal) (ix2 k j) := by
  show V c (Pipeline.arrRef spec0 5) (((cfg0.win 5).blk t).view.emb (ix2 k j)) = _
  refine congrArg _ (funext fun a => Fin.ext ?_)
  have e := idx_facts t
  match a with
  | ⟨0, _⟩ => show win0_5.index t (0 : Fin 2) * 128 + 1 * k.val = k.val; omega
  | ⟨1, _⟩ => show win0_5.index t (1 : Fin 2) * 128 + 1 * j.val = j.val; omega

theorem blk6_at (c : Dev nD) (t : Fin cfg0.N) (k j : Fin 128) :
    iblk0 V c 6 t (ix2 k j) = (V c (Pipeline.arrRef spec0 6) : S128x128.Idx → EReal) (ix2 k j) := by
  show V c (Pipeline.arrRef spec0 6) (((cfg0.win 6).blk t).view.emb (ix2 k j)) = _
  refine congrArg _ (funext fun a => Fin.ext ?_)
  have e := idx_facts t
  match a with
  | ⟨0, _⟩ => show win0_6.index t (0 : Fin 2) * 128 + 1 * k.val = k.val; omega
  | ⟨1, _⟩ => show win0_6.index t (1 : Fin 2) * 128 + 1 * j.val = j.val; omega

theorem blk7_at (c : Dev nD) (t : Fin cfg0.N) (k j : Fin 128) :
    iblk0 V c 7 t (ix2 k j) = (V c (Pipeline.arrRef spec0 7) : S128x128.Idx → EReal) (ix2 k j) := by
  show V c (Pipeline.arrRef spec0 7) (((cfg0.win 7).blk t).view.emb (ix2 k j)) = _
  refine congrArg _ (funext fun a => Fin.ext ?_)
  have e := idx_facts t
  match a with
  | ⟨0, _⟩ => show win0_7.index t (0 : Fin 2) * 128 + 1 * k.val = k.val; omega
  | ⟨1, _⟩ => show win0_7.index t (1 : Fin 2) * 128 + 1 * j.val = j.val; omega

theorem blk8_at (c : Dev nD) (t : Fin cfg0.N) (j : Fin 128) :
    iblk0 V c 8 t (ix1 j) = (V c (Pipeline.arrRef spec0 8) : S128.Idx → EReal) (ix1 j) := by
  show V c (Pipeline.arrRef spec0 8) (((cfg0.win 8).blk t).view.emb (ix1 j)) = _
  refine congrArg _ (funext fun a => Fin.ext ?_)
  have e := idx_facts t
  match a with
  | ⟨0, _⟩ => show win0_8.index t (0 : Fin 1) * 128 + 1 * j.val = j.val; omega

theorem blk9_at (c : Dev nD) (t : Fin cfg0.N) (j : Fin 128) :
    iblk0 V c 9 t (ix1 j) = (V c (Pipeline.arrRef spec0 9) : S128.Idx → EReal) (ix1 j) := by
  show V c (Pipeline.arrRef spec0 9) (((cfg0.win 9).blk t).view.emb (ix1 j)) = _
  refine congrArg _ (funext fun a => Fin.ext ?_)
  have e := idx_facts t
  match a with
  | ⟨0, _⟩ => show win0_9.index t (0 : Fin 1) * 128 + 1 * j.val = j.val; omega

theorem blk10_at (c : Dev nD) (t : Fin cfg0.N) (j : Fin 128) :
    iblk0 V c 10 t (ix1 j) = (V c (Pipeline.arrRef spec0 10) : S128.Idx → EReal) (ix1 j) := by
  show V c (Pipeline.arrRef spec0 10) (((cfg0.win 10).blk t).view.emb (ix1 j)) = _
  refine congrArg _ (funext fun a => Fin.ext ?_)
  have e := idx_facts t
  match a with
  | ⟨0, _⟩ => show win0_10.index t (0 : Fin 1) * 128 + 1 * j.val = j.val; omega

/-- The written block's row `p`, lane `q` is the array's row `2000·t + p`, lane `q`. -/
theorem emb_out (t : Fin cfg0.N) (p : Fin 2000) (q : Fin 128) :
    ((cfg0.win 11).blk t).view.emb (ix2 p q) = (ix2 (rowOf t p) q : S50000x128.Idx) := by
  funext a; apply Fin.ext
  have e := idx_facts t
  match a with
  | ⟨0, _⟩ => show win0_11.index t (0 : Fin 2) * 2000 + 1 * p.val = t.val * 2000 + p.val; omega
  | ⟨1, _⟩ => show win0_11.index t (1 : Fin 2) * 128 + 1 * q.val = q.val; omega

/-! ## What a point writes back, the cover, the array -/

/-- The region's result array as a function of the arrays it reads, as the region finds them. -/
abbrev result (c : Dev nD) : S50000x128.Idx → EReal :=
  outKA (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))

/-- Row `p` of point `t`'s blocks is row `2000·t + p` of the arrays: the pre-activations agree. -/
theorem pre_row (c : Dev nD) (t : Fin cfg0.N) (p : Fin 2000) (j : Fin 128) :
    preKA (iblk0 V c 0 t) (iblk0 V c 1 t) (iblk0 V c 2 t) (iblk0 V c 3 t) (iblk0 V c 4 t) (iblk0 V c 5 t)
      (iblk0 V c 6 t) (iblk0 V c 7 t) (iblk0 V c 8 t) p j
      = preKA (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (rowOf t p) j := by
  unfold preKA
  simp only [blk0_at, blk1_at, blk2_at, blk3_at, blk4_at, blk5_at, blk6_at, blk7_at, blk8_at]

set_option maxHeartbeats 1600000 in
/-- Point `t` writes back block `t` of `result`. -/
theorem flushed_eq (c : Dev nD) (t : Fin cfg0.N) :
    (dat0 V c).flushed 11 t = ((cfg0.win 11).blk t).view.read (Elt Ideal) (result V c) := by
  show (cfg0.win 11).cut (grid0.coords t) ((dat0 V c).after 11 t) = _
  rw [after0_11]
  funext y
  obtain ⟨p, q, rfl⟩ : ∃ (p : Fin 2000) (q : Fin 128), y = ix2 p q := ⟨y 0, y 1, eq_ix2 y⟩
  show out0_11 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (ix2 p q)
    = result V c (((cfg0.win 11).blk t).view.emb (ix2 p q))
  rw [out_at, emb_out]
  show rowOut _ _ _ q = rowOut (fun j => preKA _ _ _ _ _ _ _ _ _ (rowOf t p) j) (fun j => V c (Pipeline.arrRef spec0 9) (ix1 j))
    (fun j => V c (Pipeline.arrRef spec0 10) (ix1 j)) q
  rw [show (fun j => preKA (iblk0 V c 0 t) (iblk0 V c 1 t) (iblk0 V c 2 t) (iblk0 V c 3 t) (iblk0 V c 4 t) (iblk0 V c 5 t)
      (iblk0 V c 6 t) (iblk0 V c 7 t) (iblk0 V c 8 t) p j) = (fun j => preKA (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (rowOf t p) j)
      from funext fun j => pre_row V c t p j,
    show (fun j => iblk0 V c 9 t (ix1 j)) = (fun j => V c (Pipeline.arrRef spec0 9) (ix1 j)) from funext fun j => blk9_at V c t j,
    show (fun j => iblk0 V c 10 t (ix1 j)) = (fun j => V c (Pipeline.arrRef spec0 10) (ix1 j)) from funext fun j => blk10_at V c t j]

/-- An index of the array is in point `t`'s block iff each coordinate is in the block's range on its axis. -/
theorem mem_blk (t : Fin cfg0.N) (i : S50000x128.Idx) :
    i ∈ ((cfg0.win 11).blk t).view.set ↔ ∀ a : Fin 2, win0_11.index t a * S2000x128.size a ≤ (i a).val
      ∧ (i a).val < win0_11.index t a * S2000x128.size a + S2000x128.size a := by
  show i ∈ ((View.whole main_v85).slice (win0_11.rect t)).set ↔ _
  rw [View.set_slice_whole, Rect.mem_set_unit]
  exact Iff.rfl

/-- The 25 written blocks tile the 50000 rows: row `r` is in the block of point `r / 2000`. -/
theorem cover (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  have hN : cfg0.N = 25 := N_0
  refine ⟨⟨(i 0).val / 2000, by omega⟩, flush0_11 _, ?_⟩
  rw [mem_blk]
  intro a
  have e := idx_facts ⟨(i 0).val / 2000, by omega⟩
  match a with
  | ⟨0, _⟩ =>
    show win0_11.index _ (0 : Fin 2) * 2000 ≤ (i 0).val ∧ (i 0).val < win0_11.index _ (0 : Fin 2) * 2000 + 2000
    rw [e.2.2.2.2.2.2.2.2.2.2.2.2.2.2.2.2.2.2.2.1]
    show (i 0).val / 2000 * 2000 ≤ (i 0).val ∧ (i 0).val < (i 0).val / 2000 * 2000 + 2000
    omega
  | ⟨1, _⟩ =>
    show win0_11.index _ (1 : Fin 2) * 128 ≤ (i 1).val ∧ (i 1).val < win0_11.index _ (1 : Fin 2) * 128 + 128
    rw [e.2.2.2.2.2.2.2.2.2.2.2.2.2.2.2.2.2.2.2.2]
    omega

/-- The region's output array ends holding `result`. -/
theorem final (c : Dev nD) : (dat0 V c).arrAt 11 cfg0.N = result V c :=
  (dat0 V c).arrAt_eq_of_cover 11 (result V c) (fun t _ => flushed_eq V c t) cover

end Cert.Sage.ValA

end
-- ==== Proof.PayB.lean ====
/-
  The type-B combine body read at an index.

  One grid point handles a block of 5000 destination rows.  Its body is a pure function of the loaded blocks; read at
  row `p`, lane `q` it is the LayerNorm-and-relu of the row `p` of the pre-activation, whose entry `j` is a sum of
  128-term products of the block's rows with the (already transposed) weight matrices plus the bias.  A change of float
  format is the identity on the extended reals, a matrix product into a zero accumulator is the plain sum over the
  contracted coordinate, and a lane sum is the sum of the row's entries.
-/
import proofs.«132773_j24696061952069_2_alg».proof.Proof.Gen.KernelIdeal.Skeleton
import proofs.«132773_j24696061952069_2_alg».proof.Proof.KSpec
import proofs.«132773_j24696061952069_2_alg».proof.Proof.Rows
import Idealize.ShloMosaic.Lib.ValueLayout
import Idealize.ShloMosaic.Lib.ValueIdx
import Idealize.ShloMosaic.PureOps.Ideal.Laws

set_option maxRecDepth 16384

noncomputable section

namespace Cert.Sage.PayB

open Cert.KernelIdeal Cert.KernelIdeal.Gen Idealize.ShloMosaic Idealize.ShloMosaic.ValueIdx Cert.Sage Cert.Sage.Rows

/-- The block-times-matrix product's dimension record. -/
abbrev dotK := dot_S5000x128_S128x128_S5000x128_1_0_0_1_n_n

theorem dotK_lhs0 (i : S5000x128.Idx) (c : dotK.contr.Idx) : (dotK.lhsIdx i c 0).val = (i 0).val := by
  unfold DotDims.lhsIdx
  rw [dif_neg (show ¬(0 : Fin S5000x128.rank) ∈ dotK.lhsBatch by decide), dif_pos (show (0 : Fin S5000x128.rank) ∈ dotK.lhsNonContracting by decide)]
  rfl
theorem dotK_lhs1 (i : S5000x128.Idx) (c : dotK.contr.Idx) : (dotK.lhsIdx i c 1).val = (c ⟨0, by decide⟩).val :=
  dotK.lhsIdx_val_of_single rfl i c
theorem dotK_rhs0 (i : S5000x128.Idx) (c : dotK.contr.Idx) : (dotK.rhsIdx i c 0).val = (c ⟨0, by decide⟩).val :=
  dotK.rhsIdx_val_of_single rfl i c
theorem dotK_rhs1 (i : S5000x128.Idx) (c : dotK.contr.Idx) : (dotK.rhsIdx i c 1).val = (i 1).val := by
  unfold DotDims.rhsIdx
  rw [dif_neg (show ¬(1 : Fin S128x128.rank) ∈ dotK.rhsBatch by decide), dif_pos (show (1 : Fin S128x128.rank) ∈ dotK.rhsNonContracting by decide)]
  rfl

/-- A 5000×128 block times a 128×128 matrix into a zero accumulator, at `(p, q)`: the sum over `k` of row `p` of the block
    against column `q` of the matrix. -/
theorem mm (lhs : FVec Ideal S5000x128 .bf16) (rhs : FVec Ideal S128x128 .bf16) (p : Fin 5000) (q : Fin 128) :
    matmul (F := Ideal) dotK none lhs rhs (constant (F := Ideal) S5000x128 .f32 0x00000000#32) (ix2 p q)
      = ∑ k : Fin 128, lhs (ix2 p k) * rhs (ix2 k q) := by
  refine (Ideal.matmul_constant_zero_apply dotK none lhs rhs (ix2 p q)).trans ?_
  rw [← Equiv.sum_comp (contrEquiv1 dotK 128 rfl rfl).symm]
  refine Finset.sum_congr rfl fun k _ => ?_
  have hk := contrEquiv1_symm_val dotK 128 rfl rfl k
  have el : dotK.lhsIdx (ix2 p q) ((contrEquiv1 dotK 128 rfl rfl).symm k) = ix2 p k := funext fun a => Fin.ext (by
    match a with
    | ⟨0, _⟩ => exact dotK_lhs0 _ _
    | ⟨1, _⟩ => exact (dotK_lhs1 _ _).trans hk)
  have er : dotK.rhsIdx (ix2 p q) ((contrEquiv1 dotK 128 rfl rfl).symm k) = ix2 k q := funext fun a => Fin.ext (by
    match a with
    | ⟨0, _⟩ => exact (dotK_rhs0 _ _).trans hk
    | ⟨1, _⟩ => exact dotK_rhs1 _ _)
  rw [el, er]

/-- The lane sum in the program's own spelling of the shapes. -/
theorem rowsumK (src : FVec Ideal S5000x128 .f32) (hφ : FKind.Formats .f32)
    (hacc : (0x00000000#32 : BitVec 32) = FKind.add.neutral .f32 hφ) (p : Fin 5000) :
    multiReduction .add [1] S5000 src 0x00000000#32 reduces_S5000x128_S5000 hφ hacc (ix1 p) = ∑ k : Fin 128, src (ix2 p k) := by
  refine (Ideal.multiReduction_add_single src 0x00000000#32 reduces_S5000x128_S5000 hφ hacc (ix1 p)).trans ?_
  refine Finset.sum_congr rfl fun k _ => congrArg src (funext fun a => Fin.ext ?_)
  match a with
  | ⟨0, _⟩ => rfl
  | ⟨1, _⟩ => rfl

/-- Elementwise reciprocal square root at an index. -/
theorem rsqrt_at {s : Shape} (a : FVec Ideal s .f32) (i : s.Idx) : rsqrt a i = Ideal.rsqrt (a i) := rfl
/-- A float word read as a scalar is the extended real its pattern denotes. -/
theorem scalar_word (w : BitVec 32) : Scalar.ofBits (F := Ideal) .f32 w = Ideal.ofBits .f32 w := rfl

/-- The block's lane sum. -/
def red (y : FVec Ideal S5000x128 .f32) : FVec Ideal S5000 .f32 :=
  multiReduction .add [1] S5000 y 0x00000000#32 reduces_S5000x128_S5000 (.inl rfl) rfl
theorem red_at (y : FVec Ideal S5000x128 .f32) (p : Fin 5000) : red y (ix1 p) = ∑ k : Fin 128, y (ix2 p k) :=
  rowsumK y (.inl rfl) rfl p

/-- The pre-activation block: the scaled neighbour aggregate and the root features through their matrices, plus the bias. -/
def preVec (v0 : FVec Ideal S5000x128 .f32) (v2 : FVec Ideal S5000x1 .f32) (v7 : FVec Ideal S5000x128 .f32)
    (v9 v12 : FVec Ideal S128x128 .f32) (v18 : FVec Ideal S128 .f32) : FVec Ideal S5000x128 .f32 :=
  addf
    (addf
      (matmul (F := Ideal) dotK none
        (truncf .bf16 (mulf (shapeCast S5000x128 v0 shapeCasts_S5000x128_S5000x128)
          (broadcastTo S5000x128 (shapeCast S5000x1 v2 shapeCasts_S5000x1_S5000x1) broadcasts_S5000x1_S5000x128)) bitsLt_bf16_f32)
        (truncf .bf16 (shapeCast S128x128 v9 shapeCasts_S128x128_S128x128) bitsLt_bf16_f32)
        (constant (F := Ideal) S5000x128 .f32 0x00000000#32))
      (matmul (F := Ideal) dotK none (truncf .bf16 v7 bitsLt_bf16_f32)
        (truncf .bf16 (shapeCast S128x128 v12 shapeCasts_S128x128_S128x128) bitsLt_bf16_f32)
        (constant (F := Ideal) S5000x128 .f32 0x00000000#32)))
    (broadcastTo S5000x128 (shapeCast S1x128 v18 shapeCasts_S128_S1x128) broadcasts_S1x128_S5000x128)

/-- Centre a block's rows and scale them by the reciprocal square root of their variance plus ε, the lane sums taken by `R`. -/
def normalise (R : FVec Ideal S5000x128 .f32 → FVec Ideal S5000 .f32) (x : FVec Ideal S5000x128 .f32) : FVec Ideal S5000x128 .f32 :=
  mulf (subf x (broadcastTo S5000x128 (divf (shapeCast S5000x1 (R x) shapeCasts_S5000_S5000x1) (broadcast S5000x1 (Scalar.ofBits (F := Ideal) .f32 0x43000000#32))) broadcasts_S5000x1_S5000x128))
    (broadcastTo S5000x128
      (rsqrt (addf
        (divf
          (shapeCast S5000x1
            (R (mulf (subf x (broadcastTo S5000x128 (divf (shapeCast S5000x1 (R x) shapeCasts_S5000_S5000x1) (broadcast S5000x1 (Scalar.ofBits (F := Ideal) .f32 0x43000000#32))) broadcasts_S5000x1_S5000x128)) (subf x (broadcastTo S5000x128 (divf (shapeCast S5000x1 (R x) shapeCasts_S5000_S5000x1) (broadcast S5000x1 (Scalar.ofBits (F := Ideal) .f32 0x43000000#32))) broadcasts_S5000x1_S5000x128))))
            shapeCasts_S5000_S5000x1)
          (broadcast S5000x1 (Scalar.ofBits (F := Ideal) .f32 0x43000000#32)))
        (broadcast S5000x1 (Scalar.ofBits (F := Ideal) .f32 0x3727C5AC#32))))
      broadcasts_S5000x1_S5000x128)

/-- The generated payload is the normalised pre-activation block. -/
theorem pay2_eq (v0 : FVec Ideal S5000x128 .f32) (v2 : FVec Ideal S5000x1 .f32) (v7 : FVec Ideal S5000x128 .f32)
    (v9 v12 : FVec Ideal S128x128 .f32) (v18 : FVec Ideal S128 .f32) :
    k1_pay2 (F := Ideal) v0 v2 v7 v9 v12 v18 = normalise red (preVec v0 v2 v7 v9 v12 v18) := rfl

theorem preVec_at (v0 : FVec Ideal S5000x128 .f32) (v2 : FVec Ideal S5000x1 .f32) (v7 : FVec Ideal S5000x128 .f32)
    (v9 v12 : FVec Ideal S128x128 .f32) (v18 : FVec Ideal S128 .f32) (p : Fin 5000) (q : Fin 128) :
    preVec v0 v2 v7 v9 v12 v18 (ix2 p q) = preKB v0 v2 v7 v9 v12 v18 p q := by
  unfold preVec preKB
  simp only [addf_apply, mm, truncf_apply, mulf_apply, shapeCast_self, lanes5000, broadcastTo_1b_ab_apply, shapeCast_a_1a_apply]

theorem normalise_at (R : FVec Ideal S5000x128 .f32 → FVec Ideal S5000 .f32)
    (hR : ∀ (y : FVec Ideal S5000x128 .f32) (p : Fin 5000), R y (ix1 p) = ∑ k : Fin 128, y (ix2 p k))
    (x : FVec Ideal S5000x128 .f32) (p : Fin 5000) (q : Fin 128) (P : Fin 128 → EReal) (hP : ∀ j, x (ix2 p j) = P j) :
    normalise R x (ix2 p q) = (P q - mu P) * Ideal.rsqrt (var P + wEps) := by
  unfold normalise
  simp only [mu, var, mulf_apply, subf_apply, addf_apply, divf_apply, broadcast_apply, rsqrt_at, scalar_word,
    lanes5000, col5000, hR, hP]

/-- The normalised row at `(p, q)`: the pre-activation's row `p` centred and scaled by its reciprocal standard deviation. -/
theorem pay2_at (v0 : FVec Ideal S5000x128 .f32) (v2 : FVec Ideal S5000x1 .f32) (v7 : FVec Ideal S5000x128 .f32)
    (v9 v12 : FVec Ideal S128x128 .f32) (v18 : FVec Ideal S128 .f32) (p : Fin 5000) (q : Fin 128) :
    k1_pay2 (F := Ideal) v0 v2 v7 v9 v12 v18 (ix2 p q)
      = (preKB v0 v2 v7 v9 v12 v18 p q - mu (fun j => preKB v0 v2 v7 v9 v12 v18 p j))
          * Ideal.rsqrt (var (fun j => preKB v0 v2 v7 v9 v12 v18 p j) + wEps) := by
  rw [pay2_eq]
  exact normalise_at red red_at _ p q (fun j => preKB v0 v2 v7 v9 v12 v18 p j) (fun j => preVec_at v0 v2 v7 v9 v12 v18 p j)

/-- The stored value at `(p, q)`: scale, shift, relu. -/
theorem pay1_at (v39 : FVec Ideal S5000x128 .f32) (v40 v44 : FVec Ideal S128 .f32) (p : Fin 5000) (q : Fin 128) :
    k1_pay1 (F := Ideal) v39 v40 v44 (ix2 p q) = max (v39 (ix2 p q) * v40 (ix1 q) + v44 (ix1 q)) w0 := by
  unfold k1_pay1
  simp only [maximumf_apply, addf_apply, mulf_apply, broadcast_apply, scalar_word, broadcastTo_1b_ab_apply, shapeCast_a_1a_apply]

end Cert.Sage.PayB

end
-- ==== Proof.ValB.lean ====
/-
  What the type-B combine region leaves in its output array.

  Grid point `t` (of 10) fetches rows `5000·t … 5000·t + 4999` of the three row-blocked operands, the whole of the two
  weight matrices and the three vectors, and writes back rows `5000·t …` of the result.  So the block's row `p` is the
  array's row `5000·t + p`, the 10 written blocks tile the 50000 rows, and the array ends holding, at every index,
  the body's function of the operand arrays as the region finds them.
-/
import proofs.«132773_j24696061952069_2_alg».proof.Proof.KernelIdealFrameP
import proofs.«132773_j24696061952069_2_alg».proof.Proof.PayB
import Idealize.ShloMosaic.Lib.Pipeline.Value

set_option maxRecDepth 16384

noncomputable section

namespace Cert.Sage.ValB

open Cert.KernelIdeal Cert.KernelIdeal.Gen Cert.KernelIdeal.GenP
open Idealize.ShloMosaic Idealize.ShloMosaic.TcCoe Idealize.SL.Sem Idealize.ShloMosaic.ValueIdx Cert.Sage
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's result from the loaded blocks, at row `p`, lane `q`. -/
theorem out_at (x0 : Vec Ideal S5000x128 .f32) (x1 : Vec Ideal S5000x1 .f32) (x2 : Vec Ideal S5000x128 .f32)
    (x3 x4 : Vec Ideal S128x128 .f32) (x5 x6 x7 : Vec Ideal S128 .f32) (p : Fin 5000) (q : Fin 128) :
    out1_8 (F := Ideal) x0 x1 x2 x3 x4 x5 x6 x7 (ix2 p q)
      = rowOut (fun j => preKB x0 x1 x2 x3 x4 x5 p j) (fun j => x6 (ix1 j)) (fun j => x7 (ix1 j)) q := by
  unfold out1_8
  rw [View.canon_unit_zero hz2]
  simp only [View.ld_unit_zero (S := S5000x128) hz2, View.ld_unit_zero (S := S5000x1) hz2, View.ld_unit_zero (S := S128x128) hz2,
    View.ld_unit_zero (S := S128) hz1]
  rw [PayB.pay1_at, PayB.pay2_at]
  rfl

/-- The printed index maps over the grid: the row-blocked windows move with the point, the others stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0 ∧ win1_6.index t (0 : Fin 1) = 0 ∧ win1_7.index t (0 : Fin 1) = 0
    ∧ win1_8.index t (0 : Fin 2) = t.val ∧ win1_8.index t (1 : Fin 2) = 0 :=
  (by decide +kernel : ∀ t : Fin grid1.N, _)

theorem t_lt (t : Fin cfg1.N) : t.val < 10 := by
  have h := t.isLt
  have e : cfg1.N = 10 := N_1
  omega

/-- The array row that point `t`'s block row `p` is. -/
def rowOf (t : Fin cfg1.N) (p : Fin 5000) : Fin 50000 := ⟨t.val * 5000 + p.val, by have := t_lt t; have := p.isLt; omega⟩

/-! ## Each window's block, read through the array -/

theorem blk0_at (c : Dev nD) (t : Fin cfg1.N) (p : Fin 5000) (k : Fin 128) :
    iblk1 V c 0 t (ix2 p k) = (V c (Pipeline.arrRef spec1 0) : S50000x128.Idx → EReal) (ix2 (rowOf t p) k) := by
  show V c (Pipeline.arrRef spec1 0) (((cfg1.win 0).blk t).view.emb (ix2 p k)) = _
  refine congrArg _ (funext fun a => Fin.ext ?_)
  have e := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

theorem blk1_at (c : Dev nD) (t : Fin cfg1.N) (p : Fin 5000) (u : Fin 1) :
    iblk1 V c 1 t (ix2 p u) = (V c (Pipeline.arrRef spec1 1) : S50000x1.Idx → EReal) (ix2 (rowOf t p) u) := by
  show V c (Pipeline.arrRef spec1 1) (((cfg1.win 1).blk t).view.emb (ix2 p u)) = _
  refine congrArg _ (funext fun a => Fin.ext ?_)
  have e := idx_facts t
  match a with
  | ⟨0, _⟩ => show win1_1.index t (0 : Fin 2) * 5000 + 1 * p.val = t.val * 5000 + p.val; omega
  | ⟨1, _⟩ => show win1_1.index t (1 : Fin 2) * 1 + 1 * u.val = u.val; omega

theorem blk2_at (c : Dev nD) (t : Fin cfg1.N) (p : Fin 5000) (k : Fin 128) :
    iblk1 V c 2 t (ix2 p k) = (V c (Pipeline.arrRef spec1 2) : S50000x128.Idx → EReal) (ix2 (rowOf t p) k) := by
  show V c (Pipeline.arrRef spec1 2) (((cfg1.win 2).blk t).view.emb (ix2 p k)) = _
  refine congrArg _ (funext fun a => Fin.ext ?_)
  have e := idx_facts t
  match a with
  | ⟨0, _⟩ => show win1_2.index t (0 : Fin 2) * 5000 + 1 * p.val = t.val * 5000 + p.val; omega
  | ⟨1, _⟩ => show win1_2.index t (1 : Fin 2) * 128 + 1 * k.val = k.val; omega

theorem blk3_at (c : Dev nD) (t : Fin cfg1.N) (k j : Fin 128) :
    iblk1 V c 3 t (ix2 k j) = (V c (Pipeline.arrRef spec1 3) : S128x128.Idx → EReal) (ix2 k j) := by
  show V c (Pipeline.arrRef spec1 3) (((cfg1.win 3).blk t).view.emb (ix2 k j)) = _
  refine congrArg _ (funext fun a => Fin.ext ?_)
  have e := idx_facts t
  match a with
  | ⟨0, _⟩ => show win1_3.index t (0 : Fin 2) * 128 + 1 * k.val = k.val; omega
  | ⟨1, _⟩ => show win1_3.index t (1 : Fin 2) * 128 + 1 * j.val = j.val; omega

theorem blk4_at (c : Dev nD) (t : Fin cfg1.N) (k j : Fin 128) :
    iblk1 V c 4 t (ix2 k j) = (V c (Pipeline.arrRef spec1 4) : S128x128.Idx → EReal) (ix2 k j) := by
  show V c (Pipeline.arrRef spec1 4) (((cfg1.win 4).blk t).view.emb (ix2 k j)) = _
  refine congrArg _ (funext fun a => Fin.ext ?_)
  have e := idx_facts t
  match a with
  | ⟨0, _⟩ => show win1_4.index t (0 : Fin 2) * 128 + 1 * k.val = k.val; omega
  | ⟨1, _⟩ => show win1_4.index t (1 : Fin 2) * 128 + 1 * j.val = j.val; omega

theorem blk5_at (c : Dev nD) (t : Fin cfg1.N) (j : Fin 128) :
    iblk1 V c 5 t (ix1 j) = (V c (Pipeline.arrRef spec1 5) : S128.Idx → EReal) (ix1 j) := by
  show V c (Pipeline.arrRef spec1 5) (((cfg1.win 5).blk t).view.emb (ix1 j)) = _
  refine congrArg _ (funext fun a => Fin.ext ?_)
  have e := idx_facts t
  match a with
  | ⟨0, _⟩ => show win1_5.index t (0 : Fin 1) * 128 + 1 * j.val = j.val; omega

theorem blk6_at (c : Dev nD) (t : Fin cfg1.N) (j : Fin 128) :
    iblk1 V c 6 t (ix1 j) = (V c (Pipeline.arrRef spec1 6) : S128.Idx → EReal) (ix1 j) := by
  show V c (Pipeline.arrRef spec1 6) (((cfg1.win 6).blk t).view.emb (ix1 j)) = _
  refine congrArg _ (funext fun a => Fin.ext ?_)
  have e := idx_facts t
  match a with
  | ⟨0, _⟩ => show win1_6.index t (0 : Fin 1) * 128 + 1 * j.val = j.val; omega

theorem blk7_at (c : Dev nD) (t : Fin cfg1.N) (j : Fin 128) :
    iblk1 V c 7 t (ix1 j) = (V c (Pipeline.arrRef spec1 7) : S128.Idx → EReal) (ix1 j) := by
  show V c (Pipeline.arrRef spec1 7) (((cfg1.win 7).blk t).view.emb (ix1 j)) = _
  refine congrArg _ (funext fun a => Fin.ext ?_)
  have e := idx_facts t
  match a with
  | ⟨0, _⟩ => show win1_7.index t (0 : Fin 1) * 128 + 1 * j.val = j.val; omega

/-- The written block's row `p`, lane `q` is the array's row `5000·t + p`, lane `q`. -/
theorem emb_out (t : Fin cfg1.N) (p : Fin 5000) (q : Fin 128) :
    ((cfg1.win 8).blk t).view.emb (ix2 p q) = (ix2 (rowOf t p) q : S50000x128.Idx) := by
  funext a; apply Fin.ext
  have e := idx_facts t
  match a with
  | ⟨0, _⟩ => show win1_8.index t (0 : Fin 2) * 5000 + 1 * p.val = t.val * 5000 + p.val; omega
  | ⟨1, _⟩ => show win1_8.index t (1 : Fin 2) * 128 + 1 * q.val = q.val; omega

/-! ## What a point writes back, the cover, the array -/

/-- The region's result array as a function of the arrays it reads, as the region finds them. -/
abbrev result (c : Dev nD) : S50000x128.Idx → EReal :=
  outKB (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))

/-- Row `p` of point `t`'s blocks is row `5000·t + p` of the arrays: the pre-activations agree. -/
theorem pre_row (c : Dev nD) (t : Fin cfg1.N) (p : Fin 5000) (j : Fin 128) :
    preKB (iblk1 V c 0 t) (iblk1 V c 1 t) (iblk1 V c 2 t) (iblk1 V c 3 t) (iblk1 V c 4 t) (iblk1 V c 5 t) p j = preKB (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (rowOf t p) j := by
  unfold preKB
  simp only [blk0_at, blk1_at, blk2_at, blk3_at, blk4_at, blk5_at]

set_option maxHeartbeats 1600000 in
/-- Point `t` writes back block `t` of `result`. -/
theorem flushed_eq (c : Dev nD) (t : Fin cfg1.N) :
    (dat1 V c).flushed 8 t = ((cfg1.win 8).blk t).view.read (Elt Ideal) (result V c) := by
  show (cfg1.win 8).cut (grid1.coords t) ((dat1 V c).after 8 t) = _
  rw [after1_8]
  funext y
  obtain ⟨p, q, rfl⟩ : ∃ (p : Fin 5000) (q : Fin 128), y = ix2 p q := ⟨y 0, y 1, eq_ix2 y⟩
  show out1_8 (iblk1 V c 0 t) (iblk1 V c 1 t) (iblk1 V c 2 t) (iblk1 V c 3 t) (iblk1 V c 4 t) (iblk1 V c 5 t) (iblk1 V c 6 t) (iblk1 V c 7 t) (ix2 p q) = result V c (((cfg1.win 8).blk t).view.emb (ix2 p q))
  rw [out_at, emb_out]
  show rowOut _ _ _ q = rowOut (fun j => preKB _ _ _ _ _ _ (rowOf t p) j) (fun j => V c (Pipeline.arrRef spec1 6) (ix1 j))
    (fun j => V c (Pipeline.arrRef spec1 7) (ix1 j)) q
  rw [show (fun j => preKB (iblk1 V c 0 t) (iblk1 V c 1 t) (iblk1 V c 2 t) (iblk1 V c 3 t) (iblk1 V c 4 t) (iblk1 V c 5 t) p j) = (fun j => preKB (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (rowOf t p) j)
      from funext fun j => pre_row V c t p j,
    show (fun j => iblk1 V c 6 t (ix1 j)) = (fun j => V c (Pipeline.arrRef spec1 6) (ix1 j)) from funext fun j => blk6_at V c t j,
    show (fun j => iblk1 V c 7 t (ix1 j)) = (fun j => V c (Pipeline.arrRef spec1 7) (ix1 j)) from funext fun j => blk7_at V c t j]

/-- An index of the array is in point `t`'s block iff each coordinate is in the block's range on its axis. -/
theorem mem_blk (t : Fin cfg1.N) (i : S50000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v86).slice (win1_8.rect t)).set ↔ _
  rw [View.set_slice_whole, Rect.mem_set_unit]
  exact Iff.rfl

/-- The 10 written blocks tile the 50000 rows: row `r` is in the block of point `r / 5000`. -/
theorem cover (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 10 := N_1
  refine ⟨⟨(i 0).val / 5000, by omega⟩, flush1_8 _, ?_⟩
  rw [mem_blk]
  intro a
  have e := idx_facts ⟨(i 0).val / 5000, by omega⟩
  match a with
  | ⟨0, _⟩ =>
    show win1_8.index _ (0 : Fin 2) * 5000 ≤ (i 0).val ∧ (i 0).val < win1_8.index _ (0 : Fin 2) * 5000 + 5000
    rw [e.2.2.2.2.2.2.2.2.2.2.2.2.2.1]
    show (i 0).val / 5000 * 5000 ≤ (i 0).val ∧ (i 0).val < (i 0).val / 5000 * 5000 + 5000
    omega
  | ⟨1, _⟩ =>
    show win1_8.index _ (1 : Fin 2) * 128 ≤ (i 1).val ∧ (i 1).val < win1_8.index _ (1 : Fin 2) * 128 + 128
    rw [e.2.2.2.2.2.2.2.2.2.2.2.2.2.2]
    omega

/-- The region's output array ends holding `result`. -/
theorem final (c : Dev nD) : (dat1 V c).arrAt 8 cfg1.N = result V c :=
  (dat1 V c).arrAt_eq_of_cover 8 (result V c) (fun t _ => flushed_eq V c t) cover

end Cert.Sage.ValB

end
-- ==== Proof.HostVal.lean ====
/-
  The arrays the combine regions read, as terms of the arguments.

  The host stretch in front of the regions computes, per edge type, the per-destination sum of gathered source rows
  and the reciprocal of the clamped edge count, transposes the weight matrices, and adds the two root matrices and the
  two biases of destination type A.  The sums and counts are the same host terms the reference computes (a change of
  float format around the gather is the identity on the extended reals), so they are identified with the reference's
  stages and never opened.
-/
import proofs.«132773_j24696061952069_2_alg».proof.Proof.KernelIdealFrameP
import proofs.«132773_j24696061952069_2_alg».proof.Proof.Gen.ReferenceIdeal.Read
import proofs.«132773_j24696061952069_2_alg».proof.Proof.Spec
import Idealize.ShloMosaic.Lib.StableHlo.Run
import Idealize.ShloMosaic.Lib.ValueLayout

set_option maxRecDepth 16384

noncomputable section

namespace Cert.Sage.HostVal

open Cert.KernelIdeal Cert.KernelIdeal.Gen Cert.KernelIdeal.GenP
open Idealize.ShloMosaic Idealize.ShloMosaic.TcCoe Idealize.SL.Sem Idealize.ShloMosaic.StableHlo Idealize.ShloMosaic.ValueIdx Cert.Sage

variable (m : (ℓ : Loc nD τ sig) → Buf (Elt Ideal) ℓ) (ρ : Dev nD → PrngReg)

/-- A host quotient by an elementwise maximum, read at an index. -/
theorem divf_max_at {s : Shape} (a b d : FVec Ideal s .f32) (i : s.Idx) :
    Host.divf (F := Ideal) a (maximumf b d) i = Ideal.div (a i) (max (b i) (d i)) := rfl

/-- Edge type aa: the per-destination sums are the reference's. -/
theorem sum_aa (c : Dev nD) : (W1 m ρ c (Proc.devRef .tc main_v15) : S50000x128.Idx → EReal)
    = Cert.ReferenceIdeal.Read.val_main_v13 (F := Ideal) (m ((c : Thread nD τ).loc main_arg0)) (m ((c : Thread nD τ).loc main_arg2)) := by
  show StableHlo.after hostOps0 (W0 m ρ c) (Proc.devRef .tc main_v15) = _
  after_results_simp
  rfl

/-- Edge type aa: the reciprocal clamped count of destination row `r`. -/
theorem inv_aa_at (c : Dev nD) (r : Fin 50000) : (W1 m ρ c (Proc.devRef .tc main_v25) : S50000x1.Idx → EReal) (ix2 r (0 : Fin 1))
    = Ideal.div w1 (max (Cert.ReferenceIdeal.Read.val_main_v19 (F := Ideal) (m ((c : Thread nD τ).loc main_arg2)) (ix2 r (0 : Fin 1))) w1) := by
  have e : (W1 m ρ c (Proc.devRef .tc main_v25) : S50000x1.Idx → EReal)
      = Host.divf (F := Ideal) (φ := .f32) (Cert.ReferenceIdeal.Read.val_main_v20 (F := Ideal) : FVec Ideal S50000x1 .f32) (Cert.ReferenceIdeal.Read.val_main_v21 (F := Ideal) (m ((c : Thread nD τ).loc main_arg2))) := by
    show StableHlo.after hostOps0 (W0 m ρ c) (Proc.devRef .tc main_v25) = _
    after_results_simp
    rfl
  rw [e]
  unfold Cert.ReferenceIdeal.Read.val_main_v21
  rw [divf_max_at, Cert.ReferenceIdeal.Read.val_main_v20_apply]
  rfl

/-- Edge type ba. -/
theorem sum_ba (c : Dev nD) : (W1 m ρ c (Proc.devRef .tc main_v41) : S50000x128.Idx → EReal)
    = Cert.ReferenceIdeal.Read.val_main_v45 (F := Ideal) (m ((c : Thread nD τ).loc main_arg1)) (m ((c : Thread nD τ).loc main_arg3)) := by
  show StableHlo.after hostOps0 (W0 m ρ c) (Proc.devRef .tc main_v41) = _
  after_results_simp
  rfl

theorem inv_ba_at (c : Dev nD) (r : Fin 50000) : (W1 m ρ c (Proc.devRef .tc main_v51) : S50000x1.Idx → EReal) (ix2 r (0 : Fin 1))
    = Ideal.div w1 (max (Cert.ReferenceIdeal.Read.val_main_v51 (F := Ideal) (m ((c : Thread nD τ).loc main_arg3)) (ix2 r (0 : Fin 1))) w1) := by
  have e : (W1 m ρ c (Proc.devRef .tc main_v51) : S50000x1.Idx → EReal)
      = Host.divf (F := Ideal) (φ := .f32) (Cert.ReferenceIdeal.Read.val_main_v52 (F := Ideal) : FVec Ideal S50000x1 .f32) (Cert.ReferenceIdeal.Read.val_main_v53 (F := Ideal) (m ((c : Thread nD τ).loc main_arg3))) := by
    show StableHlo.after hostOps0 (W0 m ρ c) (Proc.devRef .tc main_v51) = _
    after_results_simp
    rfl
  rw [e]
  unfold Cert.ReferenceIdeal.Read.val_main_v53
  rw [divf_max_at, Cert.ReferenceIdeal.Read.val_main_v52_apply]
  rfl

/-- Edge type ab. -/
theorem sum_ab (c : Dev nD) : (W1 m ρ c (Proc.devRef .tc main_v67) : S50000x128.Idx → EReal)
    = Cert.ReferenceIdeal.Read.val_main_v78 (F := Ideal) (m ((c : Thread nD τ).loc main_arg0)) (m ((c : Thread nD τ).loc main_arg4)) := by
  show StableHlo.after hostOps0 (W0 m ρ c) (Proc.devRef .tc main_v67) = _
  after_results_simp
  rfl

theorem inv_ab_at (c : Dev nD) (r : Fin 50000) : (W1 m ρ c (Proc.devRef .tc main_v77) : S50000x1.Idx → EReal) (ix2 r (0 : Fin 1))
    = Ideal.div w1 (max (Cert.ReferenceIdeal.Read.val_main_v84 (F := Ideal) (m ((c : Thread nD τ).loc main_arg4)) (ix2 r (0 : Fin 1))) w1) := by
  have e : (W1 m ρ c (Proc.devRef .tc main_v77) : S50000x1.Idx → EReal)
      = Host.divf (F := Ideal) (φ := .f32) (Cert.ReferenceIdeal.Read.val_main_v85 (F := Ideal) : FVec Ideal S50000x1 .f32) (Cert.ReferenceIdeal.Read.val_main_v86 (F := Ideal) (m ((c : Thread nD τ).loc main_arg4))) := by
    show StableHlo.after hostOps0 (W0 m ρ c) (Proc.devRef .tc main_v77) = _
    after_results_simp
    rfl
  rw [e]
  unfold Cert.ReferenceIdeal.Read.val_main_v86
  rw [divf_max_at, Cert.ReferenceIdeal.Read.val_main_v85_apply]
  rfl

/-! ## The arguments the regions read directly, and the re-laid weights -/

theorem arg0_eq (c : Dev nD) : W1 m ρ c (Proc.devRef .tc main_arg0) = (m ((c : Thread nD τ).loc main_arg0)) := by
  show StableHlo.after hostOps0 (W0 m ρ c) (Proc.devRef .tc main_arg0) = _
  after_results_simp

theorem arg1_eq (c : Dev nD) : W1 m ρ c (Proc.devRef .tc main_arg1) = (m ((c : Thread nD τ).loc main_arg1)) := by
  show StableHlo.after hostOps0 (W0 m ρ c) (Proc.devRef .tc main_arg1) = _
  after_results_simp

theorem arg13_eq (c : Dev nD) : W1 m ρ c (Proc.devRef .tc main_arg13) = (m ((c : Thread nD τ).loc main_arg13)) := by
  show StableHlo.after hostOps0 (W0 m ρ c) (Proc.devRef .tc main_arg13) = _
  after_results_simp

theorem arg14_eq (c : Dev nD) : W1 m ρ c (Proc.devRef .tc main_arg14) = (m ((c : Thread nD τ).loc main_arg14)) := by
  show StableHlo.after hostOps0 (W0 m ρ c) (Proc.devRef .tc main_arg14) = _
  after_results_simp

theorem arg15_eq (c : Dev nD) : W1 m ρ c (Proc.devRef .tc main_arg15) = (m ((c : Thread nD τ).loc main_arg15)) := by
  show StableHlo.after hostOps0 (W0 m ρ c) (Proc.devRef .tc main_arg15) = _
  after_results_simp

/-- A transposed weight matrix: entry `(k, j)` is the argument's entry `(j, k)`. -/
theorem wT78_at (c : Dev nD) (k j : Fin 128) : (W1 m ρ c (Proc.devRef .tc main_v78) : S128x128.Idx → EReal) (ix2 k j)
    = ((m ((c : Thread nD τ).loc main_arg5)) : S128x128.Idx → EReal) (ix2 j k) := by
  have e : (W1 m ρ c (Proc.devRef .tc main_v78) : S128x128.Idx → EReal)
      = transpose S128x128 [1, 0] ((m ((c : Thread nD τ).loc main_arg5)) : S128x128.Idx → EReal) transposes_S128x128_S128x128_1_0 := by
    show StableHlo.after hostOps0 (W0 m ρ c) (Proc.devRef .tc main_v78) = _
    after_results_simp
  rw [e]
  exact transpose_ix2_apply _ _ k j

/-- A transposed weight matrix: entry `(k, j)` is the argument's entry `(j, k)`. -/
theorem wT79_at (c : Dev nD) (k j : Fin 128) : (W1 m ρ c (Proc.devRef .tc main_v79) : S128x128.Idx → EReal) (ix2 k j)
    = ((m ((c : Thread nD τ).loc main_arg8)) : S128x128.Idx → EReal) (ix2 j k) := by
  have e : (W1 m ρ c (Proc.devRef .tc main_v79) : S128x128.Idx → EReal)
      = transpose S128x128 [1, 0] ((m ((c : Thread nD τ).loc main_arg8)) : S128x128.Idx → EReal) transposes_S128x128_S128x128_1_0 := by
    show StableHlo.after hostOps0 (W0 m ρ c) (Proc.devRef .tc main_v79) = _
    after_results_simp
  rw [e]
  exact transpose_ix2_apply _ _ k j

/-- A transposed weight matrix: entry `(k, j)` is the argument's entry `(j, k)`. -/
theorem wT83_at (c : Dev nD) (k j : Fin 128) : (W1 m ρ c (Proc.devRef .tc main_v83) : S128x128.Idx → EReal) (ix2 k j)
    = ((m ((c : Thread nD τ).loc main_arg11)) : S128x128.Idx → EReal) (ix2 j k) := by
  have e : (W1 m ρ c (Proc.devRef .tc main_v83) : S128x128.Idx → EReal)
      = transpose S128x128 [1, 0] ((m ((c : Thread nD τ).loc main_arg11)) : S128x128.Idx → EReal) transposes_S128x128_S128x128_1_0 := by
    show StableHlo.after hostOps0 (W0 m ρ c) (Proc.devRef .tc main_v83) = _
    after_results_simp
  rw [e]
  exact transpose_ix2_apply _ _ k j

/-- A transposed weight matrix: entry `(k, j)` is the argument's entry `(j, k)`. -/
theorem wT84_at (c : Dev nD) (k j : Fin 128) : (W1 m ρ c (Proc.devRef .tc main_v84) : S128x128.Idx → EReal) (ix2 k j)
    = ((m ((c : Thread nD τ).loc main_arg12)) : S128x128.Idx → EReal) (ix2 j k) := by
  have e : (W1 m ρ c (Proc.devRef .tc main_v84) : S128x128.Idx → EReal)
      = transpose S128x128 [1, 0] ((m ((c : Thread nD τ).loc main_arg12)) : S128x128.Idx → EReal) transposes_S128x128_S128x128_1_0 := by
    show StableHlo.after hostOps0 (W0 m ρ c) (Proc.devRef .tc main_v84) = _
    after_results_simp
  rw [e]
  exact transpose_ix2_apply _ _ k j

/-- The summed root matrices, transposed (`x6`, `x9` the two root matrices as launched). -/
theorem wr_sum_at (c : Dev nD) (x6 x9 : FVec Ideal S128x128 .f32) (h6 : x6 = (m ((c : Thread nD τ).loc main_arg6))) (h9 : x9 = (m ((c : Thread nD τ).loc main_arg9))) (k j : Fin 128) :
    (W1 m ρ c (Proc.devRef .tc main_v81) : S128x128.Idx → EReal) (ix2 k j) = x6 (ix2 j k) + x9 (ix2 j k) := by
  have e : (W1 m ρ c (Proc.devRef .tc main_v81) : S128x128.Idx → EReal)
      = transpose S128x128 [1, 0] (addf (F := Ideal) x6 x9) transposes_S128x128_S128x128_1_0 := by
    subst h6 h9
    show StableHlo.after hostOps0 (W0 m ρ c) (Proc.devRef .tc main_v81) = _
    after_results_simp
  rw [e]
  exact transpose_ix2_apply _ _ k j

/-- The summed biases. -/
theorem b_sum_at (c : Dev nD) (x7 x10 : FVec Ideal S128 .f32) (h7 : x7 = (m ((c : Thread nD τ).loc main_arg7))) (h10 : x10 = (m ((c : Thread nD τ).loc main_arg10))) (j : Fin 128) :
    (W1 m ρ c (Proc.devRef .tc main_v82) : S128.Idx → EReal) (ix1 j) = x7 (ix1 j) + x10 (ix1 j) := by
  have e : (W1 m ρ c (Proc.devRef .tc main_v82) : S128.Idx → EReal) = addf (F := Ideal) x7 x10 := by
    subst h7 h10
    show StableHlo.after hostOps0 (W0 m ρ c) (Proc.devRef .tc main_v82) = _
    after_results_simp
  rw [e]
  rfl

end Cert.Sage.HostVal

end
-- ==== Proof.KernelValue.lean ====
/-
  The idealized kernel's two results as the specification's functions of the arguments.

  The type-A result buffer is not touched by the second region, so it ends as the first region leaves it: the
  kernel's spelling `outKA` of the arrays at that region's entry.  Those arrays are the host stretch's results — the
  reference's own sum and count stages, reciprocal clamped counts, transposed weights, the sum of the two root
  matrices and of the two biases — and with them the kernel's row before LayerNorm equals the reference's
  (`preA_eq`: a product with a reciprocal is a quotient; a product against a sum of two real matrices splits; sums
  regroup).  The type-B result is the second region's, whose operands are untouched by the first region, with only
  the reciprocal count to convert (`preB_eq`).
-/
import proofs.«132773_j24696061952069_2_alg».proof.Proof.KernelRun
import proofs.«132773_j24696061952069_2_alg».proof.Proof.ValA
import proofs.«132773_j24696061952069_2_alg».proof.Proof.ValB
import proofs.«132773_j24696061952069_2_alg».proof.Proof.HostVal

set_option maxRecDepth 16384

noncomputable section

namespace Cert.Sage.KernelValue

open Cert.KernelIdeal Cert.KernelIdeal.Gen Cert.KernelIdeal.GenP
open Idealize.ShloMosaic Idealize.ShloMosaic.TcCoe Idealize.SL.Sem Idealize.ShloMosaic.ValueIdx Cert.Sage

variable (m : (ℓ : Loc nD τ sig) → Buf (Elt Ideal) ℓ) (ρ : Dev nD → PrngReg)

/-- The type-A result buffer ends at the first region's result over the arrays the host stretch leaves. -/
theorem resA (c : Dev nD) : W3 m ρ c (Proc.devRef .tc main_v85)
    = outKA (W1 m ρ c (Proc.devRef .tc main_v15)) (W1 m ρ c (Proc.devRef .tc main_v25)) (W1 m ρ c (Proc.devRef .tc main_v41)) (W1 m ρ c (Proc.devRef .tc main_v51)) (W1 m ρ c (Proc.devRef .tc main_arg0))
        (W1 m ρ c (Proc.devRef .tc main_v78)) (W1 m ρ c (Proc.devRef .tc main_v79)) (W1 m ρ c (Proc.devRef .tc main_v81)) (W1 m ρ c (Proc.devRef .tc main_v82)) (W1 m ρ c (Proc.devRef .tc main_arg14)) (W1 m ρ c (Proc.devRef .tc main_arg15)) :=
  (W3_of_ne m ρ c main_v85 (by decide)).trans ((W2_arr m ρ c 11).trans (ValA.final (V1 m ρ) c))

/-- The kernel's spelling of the type-A result is the specification's, when the root features and the two root
    matrices are real. -/
theorem kerA_eq (c : Dev nD)
    (x0 : FVec Ideal S50000x128 .f32) (x6 x9 : FVec Ideal S128x128 .f32) (x7 x10 : FVec Ideal S128 .f32)
    (h0 : x0 = (m ((c : Thread nD τ).loc main_arg0))) (h6 : x6 = (m ((c : Thread nD τ).loc main_arg6))) (h9 : x9 = (m ((c : Thread nD τ).loc main_arg9))) (h7 : x7 = (m ((c : Thread nD τ).loc main_arg7))) (h10 : x10 = (m ((c : Thread nD τ).loc main_arg10)))
    (f0 : ∀ i, x0 i ≠ ⊤ ∧ x0 i ≠ ⊥) (f6 : ∀ i, x6 i ≠ ⊤ ∧ x6 i ≠ ⊥) (f9 : ∀ i, x9 i ≠ ⊤ ∧ x9 i ≠ ⊥) :
    outKA (W1 m ρ c (Proc.devRef .tc main_v15)) (W1 m ρ c (Proc.devRef .tc main_v25)) (W1 m ρ c (Proc.devRef .tc main_v41)) (W1 m ρ c (Proc.devRef .tc main_v51)) (W1 m ρ c (Proc.devRef .tc main_arg0))
        (W1 m ρ c (Proc.devRef .tc main_v78)) (W1 m ρ c (Proc.devRef .tc main_v79)) (W1 m ρ c (Proc.devRef .tc main_v81)) (W1 m ρ c (Proc.devRef .tc main_v82)) (W1 m ρ c (Proc.devRef .tc main_arg14)) (W1 m ρ c (Proc.devRef .tc main_arg15))
      = arrA (Cert.ReferenceIdeal.Read.val_main_v13 (F := Ideal) (m ((c : Thread nD τ).loc main_arg0)) (m ((c : Thread nD τ).loc main_arg2))) (Cert.ReferenceIdeal.Read.val_main_v19 (F := Ideal) (m ((c : Thread nD τ).loc main_arg2)))
          (Cert.ReferenceIdeal.Read.val_main_v45 (F := Ideal) (m ((c : Thread nD τ).loc main_arg1)) (m ((c : Thread nD τ).loc main_arg3))) (Cert.ReferenceIdeal.Read.val_main_v51 (F := Ideal) (m ((c : Thread nD τ).loc main_arg3)))
          x0 (m ((c : Thread nD τ).loc main_arg5)) x6 x7 (m ((c : Thread nD τ).loc main_arg8)) x9 x10 (m ((c : Thread nD τ).loc main_arg14)) (m ((c : Thread nD τ).loc main_arg15)) := by
  funext i
  obtain ⟨r, j, rfl⟩ : ∃ (r : Fin 50000) (j : Fin 128), i = ix2 r j := ⟨i 0, i 1, eq_ix2 i⟩
  show rowOut (fun j' => preKA _ _ _ _ _ _ _ _ _ r j') (fun j' => (W1 m ρ c (Proc.devRef .tc main_arg14)) (ix1 j')) (fun j' => (W1 m ρ c (Proc.devRef .tc main_arg15)) (ix1 j')) j
    = rowOut (fun j' => conv _ _ x0 _ x6 x7 r j' + conv _ _ x0 _ x9 x10 r j') (fun j' => (m ((c : Thread nD τ).loc main_arg14)) (ix1 j')) (fun j' => (m ((c : Thread nD τ).loc main_arg15)) (ix1 j')) j
  rw [HostVal.arg14_eq, HostVal.arg15_eq]
  refine congrArg (fun P => rowOut P _ _ j) (funext fun j' => ?_)
  unfold preKA conv
  rw [HostVal.sum_aa, HostVal.sum_ba, HostVal.arg0_eq]
  simp only [HostVal.inv_aa_at m ρ c, HostVal.inv_ba_at m ρ c, HostVal.wT78_at m ρ c, HostVal.wT79_at m ρ c,
    HostVal.wr_sum_at m ρ c x6 x9 h6 h9, HostVal.b_sum_at m ρ c x7 x10 h7 h10]
  subst h0
  exact preA_eq (fun k => Cert.ReferenceIdeal.Read.val_main_v13 (F := Ideal) (m ((c : Thread nD τ).loc main_arg0)) (m ((c : Thread nD τ).loc main_arg2)) (ix2 r k))
    (fun k => Cert.ReferenceIdeal.Read.val_main_v45 (F := Ideal) (m ((c : Thread nD τ).loc main_arg1)) (m ((c : Thread nD τ).loc main_arg3)) (ix2 r k))
    (fun k => (m ((c : Thread nD τ).loc main_arg0)) (ix2 r k)) (fun k => (m ((c : Thread nD τ).loc main_arg5)) (ix2 j' k)) (fun k => (m ((c : Thread nD τ).loc main_arg8)) (ix2 j' k))
    (fun k => x6 (ix2 j' k)) (fun k => x9 (ix2 j' k))
    (Cert.ReferenceIdeal.Read.val_main_v19 (F := Ideal) (m ((c : Thread nD τ).loc main_arg2)) (ix2 r (0 : Fin 1))) (Cert.ReferenceIdeal.Read.val_main_v51 (F := Ideal) (m ((c : Thread nD τ).loc main_arg3)) (ix2 r (0 : Fin 1)))
    (x7 (ix1 j')) (x10 (ix1 j')) (fun k => f0 _) (fun k => f6 _) (fun k => f9 _)

/-- An argument the first region reads through an input window is unchanged by it. -/
theorem w2_arg14 (c : Dev nD) : W2 m ρ c (Proc.devRef .tc main_arg14) = W1 m ρ c (Proc.devRef .tc main_arg14) :=
  (W2_arr m ρ c 9).trans (((dat0 (V1 m ρ) c).arrAt_in 9 rfl _).trans (A_eq0 (V1 m ρ) c 9))
theorem w2_arg15 (c : Dev nD) : W2 m ρ c (Proc.devRef .tc main_arg15) = W1 m ρ c (Proc.devRef .tc main_arg15) :=
  (W2_arr m ρ c 10).trans (((dat0 (V1 m ρ) c).arrAt_in 10 rfl _).trans (A_eq0 (V1 m ρ) c 10))

/-- The type-B result buffer ends at the second region's result over the arrays the host stretch leaves (the first
    region writes none of them). -/
theorem resB (c : Dev nD) : W3 m ρ c (Proc.devRef .tc main_v86)
    = outKB (W1 m ρ c (Proc.devRef .tc main_v67)) (W1 m ρ c (Proc.devRef .tc main_v77)) (W1 m ρ c (Proc.devRef .tc main_arg1)) (W1 m ρ c (Proc.devRef .tc main_v83)) (W1 m ρ c (Proc.devRef .tc main_v84))
        (W1 m ρ c (Proc.devRef .tc main_arg13)) (W1 m ρ c (Proc.devRef .tc main_arg14)) (W1 m ρ c (Proc.devRef .tc main_arg15)) := by
  refine ((W3_arr m ρ c 8).trans (ValB.final (V2 m ρ) c)).trans ?_
  show outKB (W2 m ρ c (Proc.devRef .tc main_v67)) (W2 m ρ c (Proc.devRef .tc main_v77)) (W2 m ρ c (Proc.devRef .tc main_arg1)) (W2 m ρ c (Proc.devRef .tc main_v83)) (W2 m ρ c (Proc.devRef .tc main_v84))
        (W2 m ρ c (Proc.devRef .tc main_arg13)) (W2 m ρ c (Proc.devRef .tc main_arg14)) (W2 m ρ c (Proc.devRef .tc main_arg15)) = _
  rw [W2_of_ne m ρ c main_v67 (by decide), W2_of_ne m ρ c main_v77 (by decide), W2_of_ne m ρ c main_arg1 (by decide),
    W2_of_ne m ρ c main_v83 (by decide), W2_of_ne m ρ c main_v84 (by decide), W2_of_ne m ρ c main_arg13 (by decide),
    w2_arg14, w2_arg15]

/-- The kernel's spelling of the type-B result is the specification's. -/
theorem kerB_eq (c : Dev nD) :
    outKB (W1 m ρ c (Proc.devRef .tc main_v67)) (W1 m ρ c (Proc.devRef .tc main_v77)) (W1 m ρ c (Proc.devRef .tc main_arg1)) (W1 m ρ c (Proc.devRef .tc main_v83)) (W1 m ρ c (Proc.devRef .tc main_v84))
        (W1 m ρ c (Proc.devRef .tc main_arg13)) (W1 m ρ c (Proc.devRef .tc main_arg14)) (W1 m ρ c (Proc.devRef .tc main_arg15))
      = arrB (Cert.ReferenceIdeal.Read.val_main_v78 (F := Ideal) (m ((c : Thread nD τ).loc main_arg0)) (m ((c : Thread nD τ).loc main_arg4))) (Cert.ReferenceIdeal.Read.val_main_v84 (F := Ideal) (m ((c : Thread nD τ).loc main_arg4)))
          (m ((c : Thread nD τ).loc main_arg1)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  obtain ⟨r, j, rfl⟩ : ∃ (r : Fin 50000) (j : Fin 128), i = ix2 r j := ⟨i 0, i 1, eq_ix2 i⟩
  show rowOut (fun j' => preKB _ _ _ _ _ _ r j') (fun j' => (W1 m ρ c (Proc.devRef .tc main_arg14)) (ix1 j')) (fun j' => (W1 m ρ c (Proc.devRef .tc main_arg15)) (ix1 j')) j
    = rowOut (fun j' => conv _ _ _ _ _ _ r j') (fun j' => (m ((c : Thread nD τ).loc main_arg14)) (ix1 j')) (fun j' => (m ((c : Thread nD τ).loc main_arg15)) (ix1 j')) j
  rw [HostVal.arg14_eq, HostVal.arg15_eq]
  refine congrArg (fun P => rowOut P _ _ j) (funext fun j' => ?_)
  unfold preKB conv
  rw [HostVal.sum_ab, HostVal.arg1_eq, HostVal.arg13_eq]
  simp only [HostVal.inv_ab_at m ρ c, HostVal.wT83_at m ρ c, HostVal.wT84_at m ρ c]
  exact preB_eq (fun k => Cert.ReferenceIdeal.Read.val_main_v78 (F := Ideal) (m ((c : Thread nD τ).loc main_arg0)) (m ((c : Thread nD τ).loc main_arg4)) (ix2 r k)) (fun k => (m ((c : Thread nD τ).loc main_arg1)) (ix2 r k))
    (fun k => (m ((c : Thread nD τ).loc main_arg11)) (ix2 j' k)) (fun k => (m ((c : Thread nD τ).loc main_arg12)) (ix2 j' k))
    (Cert.ReferenceIdeal.Read.val_main_v84 (F := Ideal) (m ((c : Thread nD τ).loc main_arg4)) (ix2 r (0 : Fin 1))) ((m ((c : Thread nD τ).loc main_arg13)) (ix1 j'))

/-! ## The two results, named -/

/-- The type-A result as the specification's function of the launch memory. -/
abbrev specA (c : Dev nD) : S50000x128.Idx → EReal :=
  arrA (Cert.ReferenceIdeal.Read.val_main_v13 (F := Ideal) (m ((c : Thread nD τ).loc main_arg0)) (m ((c : Thread nD τ).loc main_arg2))) (Cert.ReferenceIdeal.Read.val_main_v19 (F := Ideal) (m ((c : Thread nD τ).loc main_arg2)))
    (Cert.ReferenceIdeal.Read.val_main_v45 (F := Ideal) (m ((c : Thread nD τ).loc main_arg1)) (m ((c : Thread nD τ).loc main_arg3))) (Cert.ReferenceIdeal.Read.val_main_v51 (F := Ideal) (m ((c : Thread nD τ).loc main_arg3)))
    (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15))
/-- The type-B result as the specification's function of the launch memory. -/
abbrev specB (c : Dev nD) : S50000x128.Idx → EReal :=
  arrB (Cert.ReferenceIdeal.Read.val_main_v78 (F := Ideal) (m ((c : Thread nD τ).loc main_arg0)) (m ((c : Thread nD τ).loc main_arg4))) (Cert.ReferenceIdeal.Read.val_main_v84 (F := Ideal) (m ((c : Thread nD τ).loc main_arg4)))
    (m ((c : Thread nD τ).loc main_arg1)) (m ((c : Thread nD τ).loc main_arg11)) (m ((c : Thread nD τ).loc main_arg12)) (m ((c : Thread nD τ).loc main_arg13)) (m ((c : Thread nD τ).loc main_arg14)) (m ((c : Thread nD τ).loc main_arg15))

theorem resA_spec (c : Dev nD) (x0 : FVec Ideal S50000x128 .f32) (x6 x9 : FVec Ideal S128x128 .f32)
    (h0 : x0 = (m ((c : Thread nD τ).loc main_arg0))) (h6 : x6 = (m ((c : Thread nD τ).loc main_arg6))) (h9 : x9 = (m ((c : Thread nD τ).loc main_arg9)))
    (f0 : ∀ i, x0 i ≠ ⊤ ∧ x0 i ≠ ⊥) (f6 : ∀ i, x6 i ≠ ⊤ ∧ x6 i ≠ ⊥) (f9 : ∀ i, x9 i ≠ ⊤ ∧ x9 i ≠ ⊥) :
    W3 m ρ c (Proc.devRef .tc main_v85) = specA m c := by
  subst h0 h6 h9
  exact (resA m ρ c).trans (kerA_eq m ρ c _ _ _ _ _ rfl rfl rfl rfl rfl f0 f6 f9)

theorem resB_spec (c : Dev nD) : W3 m ρ c (Proc.devRef .tc main_v86) = specB m c :=
  (resB m ρ c).trans (kerB_eq m ρ c)

end Cert.Sage.KernelValue

end
-- ==== Proof.RefValue.lean ====
/-
  The reference program's two results, read index by index, are the specified arrays.

  Each result element is obtained by reading the program's operations backwards from the result to the
  per-destination sums and counts (which stay opaque) and to the arguments: two matrix products per convolution
  (a sum over the 128 features), the bias, the sum of the two convolutions for destination type A, then the row's
  mean, variance, normalisation, scale, shift and the clamp at zero.
-/
import proofs.«132773_j24696061952069_2_alg».proof.Proof.Gen.ReferenceIdeal.Read
import proofs.«132773_j24696061952069_2_alg».proof.Proof.Spec
import Idealize.ShloMosaic.Lib.ValueIdx
import Idealize.ShloMosaic.PureOps.Ideal
import Idealize.ShloMosaic.PureOps.Ideal.Laws

noncomputable section

namespace Cert.Sage.Ref

open Cert.ReferenceIdeal Cert.ReferenceIdeal.Read Idealize.ShloMosaic Idealize.ShloMosaic.ValueIdx

/-! ## Index equations

  Each layout operation of the program reads its operand at an index computed from the result index by cases on
  the axis.  At an index given by its coordinates these are again indices given by coordinates. -/

/-- Two rank-2 indices defined by cases on the axis are equal when they agree on both axes. -/
local macro "axes2" : tactic =>
  `(tactic| exact funext fun a => Fin.ext (by match a with | ⟨0, _⟩ => rfl | ⟨1, _⟩ => rfl))
/-- The same for rank-1 indices. -/
local macro "axes1" : tactic =>
  `(tactic| exact funext fun a => Fin.ext (by match a with | ⟨0, _⟩ => rfl))

-- a matrix product reads its left operand along the row of the result …
theorem l25 (r : Fin 50000) (j k : Fin 128) : lidx_main_v25 (ix2 r j) k = ix2 r k := by axes2
theorem l27 (r : Fin 50000) (j k : Fin 128) : lidx_main_v27 (ix2 r j) k = ix2 r k := by axes2
theorem l57 (r : Fin 50000) (j k : Fin 128) : lidx_main_v57 (ix2 r j) k = ix2 r k := by axes2
theorem l59 (r : Fin 50000) (j k : Fin 128) : lidx_main_v59 (ix2 r j) k = ix2 r k := by axes2
theorem l90 (r : Fin 50000) (j k : Fin 128) : lidx_main_v90 (ix2 r j) k = ix2 r k := by axes2
theorem l92 (r : Fin 50000) (j k : Fin 128) : lidx_main_v92 (ix2 r j) k = ix2 r k := by axes2
-- … and its right operand along the column
theorem r25 (r : Fin 50000) (j k : Fin 128) : ridx_main_v25 (ix2 r j) k = ix2 k j := by axes2
theorem r27 (r : Fin 50000) (j k : Fin 128) : ridx_main_v27 (ix2 r j) k = ix2 k j := by axes2
theorem r57 (r : Fin 50000) (j k : Fin 128) : ridx_main_v57 (ix2 r j) k = ix2 k j := by axes2
theorem r59 (r : Fin 50000) (j k : Fin 128) : ridx_main_v59 (ix2 r j) k = ix2 k j := by axes2
theorem r90 (r : Fin 50000) (j k : Fin 128) : ridx_main_v90 (ix2 r j) k = ix2 k j := by axes2
theorem r92 (r : Fin 50000) (j k : Fin 128) : ridx_main_v92 (ix2 r j) k = ix2 k j := by axes2
-- a transposed matrix is read at the swapped index
theorem t24 (k j : Fin 128) : idx_main_v24 (ix2 k j) = ix2 j k := by axes2
theorem t26 (k j : Fin 128) : idx_main_v26 (ix2 k j) = ix2 j k := by axes2
theorem t56 (k j : Fin 128) : idx_main_v56 (ix2 k j) = ix2 j k := by axes2
theorem t58 (k j : Fin 128) : idx_main_v58 (ix2 k j) = ix2 j k := by axes2
theorem t89 (k j : Fin 128) : idx_main_v89 (ix2 k j) = ix2 j k := by axes2
theorem t91 (k j : Fin 128) : idx_main_v91 (ix2 k j) = ix2 j k := by axes2
-- a column broadcast along the features is read at the row's single entry
theorem c22 (r : Fin 50000) (k : Fin 128) : idx_main_v22 (ix2 r k) = ix2 r (0 : Fin 1) := by axes2
theorem c54 (r : Fin 50000) (k : Fin 128) : idx_main_v54 (ix2 r k) = ix2 r (0 : Fin 1) := by axes2
theorem c87 (r : Fin 50000) (k : Fin 128) : idx_main_v87 (ix2 r k) = ix2 r (0 : Fin 1) := by axes2
theorem c101 (r : Fin 50000) (k : Fin 128) : idx_main_v101 (ix2 r k) = ix2 r (0 : Fin 1) := by axes2
theorem c108 (r : Fin 50000) (k : Fin 128) : idx_main_v108 (ix2 r k) = ix2 r (0 : Fin 1) := by axes2
theorem c113 (r : Fin 50000) (k : Fin 128) : idx_main_v113 (ix2 r k) = ix2 r (0 : Fin 1) := by axes2
theorem c126 (r : Fin 50000) (k : Fin 128) : idx_main_v126 (ix2 r k) = ix2 r (0 : Fin 1) := by axes2
theorem c133 (r : Fin 50000) (k : Fin 128) : idx_main_v133 (ix2 r k) = ix2 r (0 : Fin 1) := by axes2
theorem c138 (r : Fin 50000) (k : Fin 128) : idx_main_v138 (ix2 r k) = ix2 r (0 : Fin 1) := by axes2
-- a row broadcast along the destinations is read at the feature
theorem w30 (r : Fin 50000) (j : Fin 128) : idx_main_v30 (ix2 r j) = ix2 (0 : Fin 1) j := by axes2
theorem w62 (r : Fin 50000) (j : Fin 128) : idx_main_v62 (ix2 r j) = ix2 (0 : Fin 1) j := by axes2
theorem w95 (r : Fin 50000) (j : Fin 128) : idx_main_v95 (ix2 r j) = ix2 (0 : Fin 1) j := by axes2
theorem w116 (r : Fin 50000) (j : Fin 128) : idx_main_v116 (ix2 r j) = ix2 (0 : Fin 1) j := by axes2
theorem w119 (r : Fin 50000) (j : Fin 128) : idx_main_v119 (ix2 r j) = ix2 (0 : Fin 1) j := by axes2
theorem w141 (r : Fin 50000) (j : Fin 128) : idx_main_v141 (ix2 r j) = ix2 (0 : Fin 1) j := by axes2
theorem w144 (r : Fin 50000) (j : Fin 128) : idx_main_v144 (ix2 r j) = ix2 (0 : Fin 1) j := by axes2
-- a vector viewed as a one-row matrix
theorem v29 (j : Fin 128) : idx_main_v29 (ix2 (0 : Fin 1) j) = ix1 j := by axes1
theorem v61 (j : Fin 128) : idx_main_v61 (ix2 (0 : Fin 1) j) = ix1 j := by axes1
theorem v94 (j : Fin 128) : idx_main_v94 (ix2 (0 : Fin 1) j) = ix1 j := by axes1
theorem v115 (j : Fin 128) : idx_main_v115 (ix2 (0 : Fin 1) j) = ix1 j := by axes1
theorem v118 (j : Fin 128) : idx_main_v118 (ix2 (0 : Fin 1) j) = ix1 j := by axes1
theorem v140 (j : Fin 128) : idx_main_v140 (ix2 (0 : Fin 1) j) = ix1 j := by axes1
theorem v143 (j : Fin 128) : idx_main_v143 (ix2 (0 : Fin 1) j) = ix1 j := by axes1
-- a row sum reads the row's entries
theorem s97 (r : Fin 50000) (k : Fin 128) : idx_main_v97 (ix1 r) k = ix2 r k := by axes2
theorem s104 (r : Fin 50000) (k : Fin 128) : idx_main_v104 (ix1 r) k = ix2 r k := by axes2
theorem s122 (r : Fin 50000) (k : Fin 128) : idx_main_v122 (ix1 r) k = ix2 r k := by axes2
theorem s129 (r : Fin 50000) (k : Fin 128) : idx_main_v129 (ix1 r) k = ix2 r k := by axes2
-- a vector of row sums viewed as a column
theorem u98 (r : Fin 50000) : idx_main_v98 (ix2 r (0 : Fin 1)) = ix1 r := by axes1
theorem u105 (r : Fin 50000) : idx_main_v105 (ix2 r (0 : Fin 1)) = ix1 r := by axes1
theorem u123 (r : Fin 50000) : idx_main_v123 (ix2 r (0 : Fin 1)) = ix1 r := by axes1
theorem u130 (r : Fin 50000) : idx_main_v130 (ix2 r (0 : Fin 1)) = ix1 r := by axes1

/-! ## The convolutions -/

/-- The convolution over edge type aa, at destination row `r`, feature `j`: the matrix products are sums over the 128 features of (mean neighbour row) · `W_l` and (own row) · `W_r`, then the bias. -/
theorem conv_aa (x0 : (⟨S50000x128, .f32⟩ : BufTy).Contents (Elt Ideal)) (x2 : (⟨S2x600000, .i32⟩ : BufTy).Contents (Elt Ideal))
    (x5 x6 : (⟨S128x128, .f32⟩ : BufTy).Contents (Elt Ideal)) (x7 : (⟨S128, .f32⟩ : BufTy).Contents (Elt Ideal)) (r : Fin 50000) (j : Fin 128) :
    val_main_v31 (F := Ideal) x0 x2 x5 x6 x7 (ix2 r j)
      = Cert.Sage.conv (val_main_v13 (F := Ideal) x0 x2) (val_main_v19 (F := Ideal) x2) x0 x5 x6 x7 r j := by
  rw [val_main_v31_apply, val_main_v28_apply, val_main_v25_apply, val_main_v27_apply, val_main_v30_apply, val_main_v29_apply]
  simp -implicitDefEqProofs only [val_main_v23_apply, val_main_v24_apply, val_main_v26_apply, val_main_v22_apply, val_main_v21_apply, val_main_v20_apply, val_main_cst_3_apply]
  simp -implicitDefEqProofs only [l25, r25, t24, c22, l27, r27, t26, w30, v29]
  simp -implicitDefEqProofs only [Ideal.addf_def, Ideal.hostDivf_def, Ideal.maximumf_def, Ideal.ofBits_def]
  rfl

/-- The convolution over edge type ba (sources of type B, destinations of type A). -/
theorem conv_ba (x0 x1 : (⟨S50000x128, .f32⟩ : BufTy).Contents (Elt Ideal)) (x3 : (⟨S2x600000, .i32⟩ : BufTy).Contents (Elt Ideal))
    (x8 x9 : (⟨S128x128, .f32⟩ : BufTy).Contents (Elt Ideal)) (x10 : (⟨S128, .f32⟩ : BufTy).Contents (Elt Ideal)) (r : Fin 50000) (j : Fin 128) :
    val_main_v63 (F := Ideal) x0 x1 x3 x8 x9 x10 (ix2 r j)
      = Cert.Sage.conv (val_main_v45 (F := Ideal) x1 x3) (val_main_v51 (F := Ideal) x3) x0 x8 x9 x10 r j := by
  rw [val_main_v63_apply, val_main_v60_apply, val_main_v57_apply, val_main_v59_apply, val_main_v62_apply, val_main_v61_apply]
  simp -implicitDefEqProofs only [val_main_v55_apply, val_main_v56_apply, val_main_v58_apply, val_main_v54_apply, val_main_v53_apply, val_main_v52_apply, val_main_cst_9_apply]
  simp -implicitDefEqProofs only [l57, r57, t56, c54, l59, r59, t58, w62, v61]
  simp -implicitDefEqProofs only [Ideal.addf_def, Ideal.hostDivf_def, Ideal.maximumf_def, Ideal.ofBits_def]
  rfl

/-- The convolution over edge type ab (sources of type A, destinations of type B). -/
theorem conv_ab (x0 x1 : (⟨S50000x128, .f32⟩ : BufTy).Contents (Elt Ideal)) (x4 : (⟨S2x600000, .i32⟩ : BufTy).Contents (Elt Ideal))
    (x11 x12 : (⟨S128x128, .f32⟩ : BufTy).Contents (Elt Ideal)) (x13 : (⟨S128, .f32⟩ : BufTy).Contents (Elt Ideal)) (r : Fin 50000) (j : Fin 128) :
    val_main_v96 (F := Ideal) x0 x1 x4 x11 x12 x13 (ix2 r j)
      = Cert.Sage.conv (val_main_v78 (F := Ideal) x0 x4) (val_main_v84 (F := Ideal) x4) x1 x11 x12 x13 r j := by
  rw [val_main_v96_apply, val_main_v93_apply, val_main_v90_apply, val_main_v92_apply, val_main_v95_apply, val_main_v94_apply]
  simp -implicitDefEqProofs only [val_main_v88_apply, val_main_v89_apply, val_main_v91_apply, val_main_v87_apply, val_main_v86_apply, val_main_v85_apply, val_main_cst_15_apply]
  simp -implicitDefEqProofs only [l90, r90, t89, c87, l92, r92, t91, w95, v94]
  simp -implicitDefEqProofs only [Ideal.addf_def, Ideal.hostDivf_def, Ideal.maximumf_def, Ideal.ofBits_def]
  rfl

/-! ## LayerNorm and relu -/

/-- A row sum starts from the word `0.0`, which denotes zero. -/
theorem zero_word_add (a : EReal) : Ideal.ofBits .f32 0x00000000#32 + a = a := by
  rw [Ideal.ofBits_zero_f32, zero_add]

/-- A row of the type-A result: the two convolutions added, normalised over the row's 128 entries, scaled, shifted
    and clamped at zero. -/
theorem rowA_at (x0 x1 : (⟨S50000x128, .f32⟩ : BufTy).Contents (Elt Ideal)) (x2 x3 : (⟨S2x600000, .i32⟩ : BufTy).Contents (Elt Ideal))
    (x5 x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 x14 x15 : (⟨S128, .f32⟩ : BufTy).Contents (Elt Ideal))
    (r : Fin 50000) (j : Fin 128) :
    val_main_v121 (F := Ideal) x0 x1 x2 x3 x5 x6 x7 x8 x9 x10 x14 x15 (ix2 r j)
      = Cert.Sage.rowA (val_main_v13 (F := Ideal) x0 x2) (val_main_v19 (F := Ideal) x2) (val_main_v45 (F := Ideal) x1 x3)
          (val_main_v51 (F := Ideal) x3) x0 x5 x6 x7 x8 x9 x10 x14 x15 r j := by
  have h64 : ∀ j' : Fin 128, val_main_v64 (F := Ideal) x0 x1 x2 x3 x5 x6 x7 x8 x9 x10 (ix2 r j')
      = Cert.Sage.conv (val_main_v13 (F := Ideal) x0 x2) (val_main_v19 (F := Ideal) x2) x0 x5 x6 x7 r j'
        + Cert.Sage.conv (val_main_v45 (F := Ideal) x1 x3) (val_main_v51 (F := Ideal) x3) x0 x8 x9 x10 r j' := fun j' => by
    rw [val_main_v64_apply, conv_aa, conv_ba]; rfl
  simp -implicitDefEqProofs only [val_main_v121_apply, val_main_v120_apply, val_main_v119_apply, val_main_v118_apply, val_main_v117_apply,
    val_main_v116_apply, val_main_v115_apply, val_main_v114_apply, val_main_v113_apply, val_main_v112_apply,
    val_main_v111_apply, val_main_v110_apply, val_main_cst_20_apply, val_main_v109_apply, val_main_v108_apply,
    val_main_v107_apply, val_main_v106_apply, val_main_cst_19_apply, val_main_v105_apply, val_main_v104_apply,
    val_main_cst_18_apply, val_main_v103_apply, val_main_v102_apply, val_main_v101_apply, val_main_v100_apply,
    val_main_v99_apply, val_main_cst_17_apply, val_main_v98_apply, val_main_v97_apply, val_main_cst_16_apply,
    val_main_call0_v0_apply, val_main_call0_cst_apply]
  simp -implicitDefEqProofs only [c101, c108, c113, w116, w119, v115, v118, u98, u105, s97, s104]
  simp -implicitDefEqProofs only [h64]
  simp -implicitDefEqProofs only [Ideal.addf_def, Ideal.subf_def, Ideal.mulf_def, Ideal.hostDivf_def, Ideal.maximumf_def,
    Ideal.hostUnary_rsqrt_def, Ideal.ofBits_def, zero_word_add]
  simp -implicitDefEqProofs only [Cert.Sage.rowA, Cert.Sage.rowOut, Cert.Sage.var, Cert.Sage.mu]

/-- A row of the type-B result: one convolution, then the same normalisation and clamp. -/
theorem rowB_at (x0 x1 : (⟨S50000x128, .f32⟩ : BufTy).Contents (Elt Ideal)) (x4 : (⟨S2x600000, .i32⟩ : BufTy).Contents (Elt Ideal))
    (x11 x12 : (⟨S128x128, .f32⟩ : BufTy).Contents (Elt Ideal)) (x13 x14 x15 : (⟨S128, .f32⟩ : BufTy).Contents (Elt Ideal))
    (r : Fin 50000) (j : Fin 128) :
    val_main_v146 (F := Ideal) x0 x1 x4 x11 x12 x13 x14 x15 (ix2 r j)
      = Cert.Sage.rowB (val_main_v78 (F := Ideal) x0 x4) (val_main_v84 (F := Ideal) x4) x1 x11 x12 x13 x14 x15 r j := by
  simp -implicitDefEqProofs only [val_main_v146_apply, val_main_v145_apply, val_main_v144_apply, val_main_v143_apply, val_main_v142_apply,
    val_main_v141_apply, val_main_v140_apply, val_main_v139_apply, val_main_v138_apply, val_main_v137_apply,
    val_main_v136_apply, val_main_v135_apply, val_main_cst_25_apply, val_main_v134_apply, val_main_v133_apply,
    val_main_v132_apply, val_main_v131_apply, val_main_cst_24_apply, val_main_v130_apply, val_main_v129_apply,
    val_main_cst_23_apply, val_main_v128_apply, val_main_v127_apply, val_main_v126_apply, val_main_v125_apply,
    val_main_v124_apply, val_main_cst_22_apply, val_main_v123_apply, val_main_v122_apply, val_main_cst_21_apply,
    val_main_call1_v0_apply, val_main_call1_cst_apply]
  simp -implicitDefEqProofs only [c126, c133, c138, w141, w144, v140, v143, u123, u130, s122, s129]
  simp -implicitDefEqProofs only [conv_ab]
  simp -implicitDefEqProofs only [Ideal.addf_def, Ideal.subf_def, Ideal.mulf_def, Ideal.hostDivf_def, Ideal.maximumf_def,
    Ideal.hostUnary_rsqrt_def, Ideal.ofBits_def, zero_word_add]
  simp -implicitDefEqProofs only [Cert.Sage.rowB, Cert.Sage.rowOut, Cert.Sage.var, Cert.Sage.mu]

/-! ## The two results -/

/-- The reference's first result is the specified type-A array. -/
theorem ref_A (x0 x1 : (⟨S50000x128, .f32⟩ : BufTy).Contents (Elt Ideal)) (x2 x3 : (⟨S2x600000, .i32⟩ : BufTy).Contents (Elt Ideal))
    (x5 x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 x14 x15 : (⟨S128, .f32⟩ : BufTy).Contents (Elt Ideal)) :
    val_main_v121 (F := Ideal) x0 x1 x2 x3 x5 x6 x7 x8 x9 x10 x14 x15
      = Cert.Sage.arrA (val_main_v13 (F := Ideal) x0 x2) (val_main_v19 (F := Ideal) x2) (val_main_v45 (F := Ideal) x1 x3)
          (val_main_v51 (F := Ideal) x3) x0 x5 x6 x7 x8 x9 x10 x14 x15 := by
  funext i
  obtain ⟨r, j, rfl⟩ : ∃ (r : Fin 50000) (j : Fin 128), i = ix2 r j := ⟨i 0, i 1, eq_ix2 i⟩
  exact rowA_at x0 x1 x2 x3 x5 x6 x7 x8 x9 x10 x14 x15 r j

/-- The reference's second result is the specified type-B array. -/
theorem ref_B (x0 x1 : (⟨S50000x128, .f32⟩ : BufTy).Contents (Elt Ideal)) (x4 : (⟨S2x600000, .i32⟩ : BufTy).Contents (Elt Ideal))
    (x11 x12 : (⟨S128x128, .f32⟩ : BufTy).Contents (Elt Ideal)) (x13 x14 x15 : (⟨S128, .f32⟩ : BufTy).Contents (Elt Ideal)) :
    val_main_v146 (F := Ideal) x0 x1 x4 x11 x12 x13 x14 x15
      = Cert.Sage.arrB (val_main_v78 (F := Ideal) x0 x4) (val_main_v84 (F := Ideal) x4) x1 x11 x12 x13 x14 x15 := by
  funext i
  obtain ⟨r, j, rfl⟩ : ∃ (r : Fin 50000) (j : Fin 128), i = ix2 r j := ⟨i 0, i 1, eq_ix2 i⟩
  exact rowB_at x0 x1 x4 x11 x12 x13 x14 x15 r j

end Cert.Sage.Ref

end
-- ==== Proof.Finite.lean ====
/-
  From the precondition "every float input is finite" to the facts the certificate uses.

  The precondition is printed as a chain of thirteen conjuncts, one per float array: the array's absolute
  values are compared, entry by entry, below the word 0x7F800000 (which denotes +∞), the comparisons are reduced by
  "and" over every axis into one bit, and the thirteen bits are and-ed together; the claim is that the result is 1.

  Reading it back: a chain of "and"s that is 1 has every conjunct 1; a reduction by "and" over all axes that is 1
  had a 1 at every entry; and on the extended reals max x (−x) < ⊤ says x is neither ⊤ nor ⊥, that is, x is a real.
-/
import proofs.«132773_j24696061952069_2_alg».proof.Pre_finite_inputs
import Idealize.ShloMosaic.Lib.ReduceAll
import Idealize.ShloMosaic.Lib.ValueIdx
import Idealize.ShloMosaic.PureOps.Ideal

noncomputable section

namespace Cert.Sage.Finite

open Idealize.ShloMosaic Cert.Pre_finite_inputs

/-- The shape of a scalar has exactly one index. -/
instance subsingleton_scalar_idx : Subsingleton S_.Idx := ⟨fun a b => funext fun d => d.elim0⟩

/-- The word 0x7F800000 denotes +∞. -/
theorem inf_word_eq_top : Ideal.ofBits .f32 0x7F800000#32 = (⊤ : EReal) := by
  simp [Ideal.ofBits, Ideal.ieee]

/-- One value: if |x| = max x (−x) compares strictly below +∞ then x is neither ⊤ nor ⊥. -/
theorem ne_top_bot_of_abs_lt_inf (x : Ideal .f32)
    (h : FloatOps.cmpf .olt (FloatOps.hostAbsf x) (FloatOps.ofBits (F := Ideal) .f32 0x7F800000#32) = 1#1) :
    x ≠ ⊤ ∧ x ≠ ⊥ := by
  have h' : Ideal.cmp .olt (max (x : EReal) (-(x : EReal))) (Ideal.ofBits .f32 0x7F800000#32) = 1#1 := h
  rw [inf_word_eq_top] at h'
  have hlt : max (x : EReal) (-(x : EReal)) < ⊤ := by
    by_contra hn
    have hd : decide (max (x : EReal) (-(x : EReal)) < ⊤) = false := decide_eq_false hn
    change BitVec.ofBool (decide (max (x : EReal) (-(x : EReal)) < ⊤)) = 1#1 at h'
    rw [hd] at h'
    exact absurd h' (by decide)
  rw [max_lt_iff] at hlt
  refine ⟨ne_top_of_lt hlt.1, ?_⟩
  intro hx
  rw [hx] at hlt
  simp at hlt

/-- One array, of any shape: if the "and" over all axes of the entrywise comparisons |x| < +∞ is 1, then every
    entry of x is neither ⊤ nor ⊥. -/
theorem entries_real_of_all {s : Shape} {axes : List (Fin s.rank)} (x : FVec Ideal s .f32)
    (hb : S_.BroadcastsInDim s (![] : Fin 0 → Fin s.rank)) (hr : s.ReducesTo axes S_) (hS : 0 < S_.numel)
    (h : Host.reduce IntOp.andi
          (cmpf .olt (Host.absf x) (broadcastInDim s ![] hb (constant (F := Ideal) S_ .f32 0x7F800000#32)))
          (constantI S_ 1 1#1) hr hS ValueIdx.ix0 = 1#1) :
    ∀ i, x i ≠ ⊤ ∧ x i ≠ ⊥ := by
  intro i
  exact ne_top_bot_of_abs_lt_inf (x i) (Host.reduce_andi_all _ _ hr hS _ h i)

/-- The precondition, read back for the three arrays the certificate's law needs: every entry of argument 0,
    of argument 6 and of argument 9 is a real. -/
theorem finite_of_pre [Cert.Pre_finite_inputs.Facts]
    (x0 x1 : FVec Ideal S50000x128 .f32) (x2 x3 x4 : IVec S2x600000 32) (x5 x6 : FVec Ideal S128x128 .f32) (x7 : FVec Ideal S128 .f32)
    (x8 x9 : FVec Ideal S128x128 .f32) (x10 : FVec Ideal S128 .f32) (x11 x12 : FVec Ideal S128x128 .f32) (x13 x14 x15 : FVec Ideal S128 .f32)
    (h : Cert.Pre_finite_inputs.fn (F := Ideal) x0 x1 x2 x3 x4 x5 x6 x7 x8 x9 x10 x11 x12 x13 x14 x15 = fun _ => 1#1) :
    (∀ i, x0 i ≠ ⊤ ∧ x0 i ≠ ⊥) ∧ (∀ i, x6 i ≠ ⊤ ∧ x6 i ≠ ⊥) ∧ (∀ i, x9 i ≠ ⊤ ∧ x9 i ≠ ⊥) := by
  have h0 := congrFun h ValueIdx.ix0
  simp only [fn, fn_part1, fn_part2, fn_part3, andi, IntOp.andi_eq_one] at h0
  obtain ⟨⟨⟨⟨⟨⟨⟨⟨⟨⟨⟨⟨a0, _⟩, _⟩, a6⟩, _⟩, _⟩, a9⟩, _⟩, _⟩, _⟩, _⟩, _⟩, _⟩ := h0
  exact ⟨entries_real_of_all x0 _ _ _ a0, entries_real_of_all x6 _ _ _ a6, entries_real_of_all x9 _ _ _ a9⟩

end Cert.Sage.Finite

end
-- ==== Proof.lean ====
/-
  The certificate's claims, assembled.

  Two SAGE convolutions into destination type A and one into type B, each row then layer-normalised and passed through
  relu.  The kernel gathers and segment-sums on the host exactly as the reference does, and hands two dense combine
  kernels the per-destination sums with a column of reciprocal clamped counts, the transposed weights, and — for type A —
  the SUM of the two root weight matrices and of the two biases.  On the extended reals a change of float format is the
  identity, a matrix product is the plain sum over the contracted coordinate and a lane sum the sum of the row, so both
  programs compute the same row function (Proof/Spec.lean) once three laws are in hand: multiplying by `1 / max c 1` is
  dividing by `max c 1` (it is never zero); a product against a sum of two matrices splits when all factors are real —
  the one use of the precondition, for the root features and the two root matrices —; and sums regroup freely.
  The frames of the two kernel programs are the launch over the host stretch and the two regions; the reference's frame
  is its run with the results dropped; the idealization rewrote nothing.
-/
import proofs.«132773_j24696061952069_2_alg».proof.Defs
import proofs.«132773_j24696061952069_2_alg».proof.Proof.Gen.Kernel
import proofs.«132773_j24696061952069_2_alg».proof.Proof.Gen.KernelIdeal
import proofs.«132773_j24696061952069_2_alg».proof.Proof.Gen.ReferenceIdeal
import proofs.«132773_j24696061952069_2_alg».proof.Proof.Gen.ReferenceIdeal.Run
import proofs.«132773_j24696061952069_2_alg».proof.Proof.Gen.ReferenceIdeal.Read
import proofs.«132773_j24696061952069_2_alg».proof.Proof.Gen.Pre_finite_inputs
import proofs.«132773_j24696061952069_2_alg».proof.Proof.KernelFrameP
import proofs.«132773_j24696061952069_2_alg».proof.Proof.KernelIdealFrameP
import proofs.«132773_j24696061952069_2_alg».proof.Proof.KernelRun
import proofs.«132773_j24696061952069_2_alg».proof.Proof.KernelValue
import proofs.«132773_j24696061952069_2_alg».proof.Proof.RefValue
import proofs.«132773_j24696061952069_2_alg».proof.Proof.Finite
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs run, and end with equal results: each is the specification's function of the arguments. -/
theorem algebraic : Cert.algebraic_KernelIdeal_ReferenceIdeal := by
  intro m ρ m' ρ' hpre hagree
  refine ⟨fun c => Cert.Sage.KernelValue.specA m c, fun c => Cert.Sage.KernelValue.specB m c, ?_, ?_⟩
  · refine (θ_run Cert.KernelIdeal.defs _ _).mono (fun r h c => ?_) (Cert.Sage.KernelRun.run_results m ρ)
    obtain ⟨f0, f6, f9⟩ := Cert.Sage.Finite.finite_of_pre _ _ _ _ _ _ _ _ _ _ _ _ _ _ _ _ (hpre c)
    exact ⟨(h c).1.trans (Cert.Sage.KernelValue.resA_spec m ρ c _ _ _ rfl rfl rfl f0 f6 f9),
      (h c).2.1.trans (Cert.Sage.KernelValue.resB_spec m ρ c), (h c).2.2⟩
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15⟩ := hagree c
    refine ⟨(h c).1.trans ?_, (h c).2.1.trans ?_, (h c).2.2⟩
    · rw [Cert.ReferenceIdeal.Read.val_main_v121_eq, Cert.Sage.Ref.ref_A, a0, a1, a2, a3, a5, a6, a7, a8, a9, a10, a14, a15]
    · rw [Cert.ReferenceIdeal.Read.val_main_v146_eq, Cert.Sage.Ref.ref_B, a0, a1, a4, a11, a12, a13, a14, a15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
